-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : IVec S1000000 32) (main_arg2 : IVec S1000000 32) (main_arg3 : FVec F S64x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S5000x64 : Shape := ⟨2, ![5000, 64]⟩
abbrev S5000x1 : Shape := ⟨2, ![5000, 1]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 70
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1000000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .f32⟩
  | .hbm, ⟨47, _⟩ => ⟨S100000x64, .f32⟩
  | .hbm, ⟨48, _⟩ => ⟨S1000000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x64, .f32⟩
  | .hbm, ⟨63, _⟩ => ⟨S_, .f32⟩
  | .hbm, ⟨64, _⟩ => ⟨S100000x64, .f32⟩
  | .hbm, ⟨65, _⟩ => ⟨S1000000x1, .i32⟩
  | .hbm, ⟨66, _⟩ => ⟨S100000x64, .f32⟩
  | .hbm, ⟨67, _⟩ => ⟨S1x64, .f32⟩
  | .hbm, ⟨68, _⟩ => ⟨S1x2, .f32⟩
  | .hbm, ⟨69, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S1x64, .f32⟩
  | .local _ .vmem, ⟨14, _⟩ => ⟨S64x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x2.size a ≤ S64x2.size a
  hwx1_4 : ∀ i : grid1.Coords, EltTy.bits .f32 = 32 ∨ (Rect.block (s := S64x2) S64x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S100000x2.size a
  hwx1_6 : ∀ i : grid1.Coords, EltTy.bits .f32 = 32 ∨ (Rect.block (s := S100000x2) S5000x2.size (cc1_transform_6 i) (hinb1_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v26) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1000000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S_, .f32⟩
  | .hbm, ⟨58, _⟩ => ⟨S100000x64, .f32⟩
  | .hbm, ⟨59, _⟩ => ⟨S100000x64, .i1⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1000000, .i32⟩
  | .hbm, ⟨69, _⟩ => ⟨S1000000, .i1⟩
  | .hbm, ⟨70, _⟩ => ⟨S_, .i32⟩
  | .hbm, ⟨71, _⟩ => ⟨S1000000, .i32⟩
  | .hbm, ⟨72, _⟩ => ⟨S1000000, .i32⟩
  | .hbm, ⟨73, _⟩ => ⟨S1000000, .i32⟩
  | .hbm, ⟨74, _⟩ => ⟨S1000000x1, .i32⟩
  | .hbm, ⟨75, _⟩ => ⟨S1000000x64, .f32⟩
  | .hbm, ⟨76, _⟩ => ⟨S_, .f32⟩
  | .hbm, ⟨77, _⟩ => ⟨S100000x64, .f32⟩
  | .hbm, ⟨78, _⟩ => ⟨S1000000x1, .i32⟩
  | .hbm, ⟨79, _⟩ => ⟨S100000x64, .f32⟩
  | .hbm, ⟨80, _⟩ => ⟨S100000x1, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S_, .f32⟩
  | .hbm, ⟨89, _⟩ => ⟨S100000x64, .f32⟩
  | .hbm, ⟨90, _⟩ => ⟨S100000x64, .i1⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S100000x2, .f32⟩
  | .hbm, ⟨96, _⟩ => ⟨S1x2, .f32⟩
  | .hbm, ⟨97, _⟩ => ⟨S100000x2, .f32⟩
  | .hbm, ⟨98, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_v37 : Ref sig .tc := ⟨.hbm, 68, rfl⟩
abbrev main_v38 : Ref sig .tc := ⟨.hbm, 69, rfl⟩
abbrev main_c_10 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel program's run with its result named.

  @main is five stretches of host operations, the first kernel region, one more stretch, the second kernel region.
  Every weakly fair execution from a memory with zero counters terminates, nothing faulting; the argument arrays end as
  launched, and the result buffer ends at what the last boundary's contents hold there: the second region's output array
  after its write-backs, the contents being a fold through @main from the launch memory (each stretch the
  operations' composed result, each region its arrays at what the write-backs leave).
-/
import proofs.«130533_j26087631356715_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run, the last thread state read against the final state: the result buffer at the last boundary's
    contents, each argument buffer at its launch contents. -/
theorem run_result : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Run

end
-- ==== Proof.HostKeep.lean ====
/-
  No host operation of the kernel program before its first region writes an argument array, so every argument buffer
  holds its launch contents at each boundary up to the first region's entry; likewise the few intermediate buffers a
  later stretch reads from an earlier one are not written in between.
-/
import proofs.«130533_j26087631356715_1_alg».proof.Proof.KernelRun
import Idealize.ShloMosaic.Lib.StableHlo.Run
import Idealize.ShloMosaic.PureOps.Ideal

set_option maxRecDepth 16384

noncomputable section

namespace Cert.KernelIdeal.HostKeep

open Cert.KernelIdeal Cert.KernelIdeal.Gen
open Idealize.ShloMosaic Idealize.ShloMosaic.TcCoe Idealize.SL.Sem Idealize.ShloMosaic.StableHlo

section Stretch
variable (Vp : Valuation τ sig (Elt Ideal))

/-! ### `hostOps0` writes no argument array -/

theorem A_arg0 : after hostOps0 Vp (Proc.devRef .tc main_arg0) = Vp (Proc.devRef .tc main_arg0) := by
  dsimp only [hostOps0]
  after_results
theorem A_arg1 : after hostOps0 Vp (Proc.devRef .tc main_arg1) = Vp (Proc.devRef .tc main_arg1) := by
  dsimp only [hostOps0]
  after_results
theorem A_arg2 : after hostOps0 Vp (Proc.devRef .tc main_arg2) = Vp (Proc.devRef .tc main_arg2) := by
  dsimp only [hostOps0]
  after_results
theorem A_arg3 : after hostOps0 Vp (Proc.devRef .tc main_arg3) = Vp (Proc.devRef .tc main_arg3) := by
  dsimp only [hostOps0]
  after_results
theorem A_arg4 : after hostOps0 Vp (Proc.devRef .tc main_arg4) = Vp (Proc.devRef .tc main_arg4) := by
  dsimp only [hostOps0]
  after_results
theorem A_arg5 : after hostOps0 Vp (Proc.devRef .tc main_arg5) = Vp (Proc.devRef .tc main_arg5) := by
  dsimp only [hostOps0]
  after_results
theorem A_arg6 : after hostOps0 Vp (Proc.devRef .tc main_arg6) = Vp (Proc.devRef .tc main_arg6) := by
  dsimp only [hostOps0]
  after_results
theorem A_arg7 : after hostOps0 Vp (Proc.devRef .tc main_arg7) = Vp (Proc.devRef .tc main_arg7) := by
  dsimp only [hostOps0]
  after_results
theorem A_arg8 : after hostOps0 Vp (Proc.devRef .tc main_arg8) = Vp (Proc.devRef .tc main_arg8) := by
  dsimp only [hostOps0]
  after_results

/-! ### `hostOps0_1` writes no argument array -/

theorem B_arg0 : after hostOps0_1 Vp (Proc.devRef .tc main_arg0) = Vp (Proc.devRef .tc main_arg0) := by
  dsimp only [hostOps0_1]
  after_results
theorem B_arg1 : after hostOps0_1 Vp (Proc.devRef .tc main_arg1) = Vp (Proc.devRef .tc main_arg1) := by
  dsimp only [hostOps0_1]
  after_results
theorem B_arg2 : after hostOps0_1 Vp (Proc.devRef .tc main_arg2) = Vp (Proc.devRef .tc main_arg2) := by
  dsimp only [hostOps0_1]
  after_results
theorem B_arg3 : after hostOps0_1 Vp (Proc.devRef .tc main_arg3) = Vp (Proc.devRef .tc main_arg3) := by
  dsimp only [hostOps0_1]
  after_results
theorem B_arg4 : after hostOps0_1 Vp (Proc.devRef .tc main_arg4) = Vp (Proc.devRef .tc main_arg4) := by
  dsimp only [hostOps0_1]
  after_results
theorem B_arg5 : after hostOps0_1 Vp (Proc.devRef .tc main_arg5) = Vp (Proc.devRef .tc main_arg5) := by
  dsimp only [hostOps0_1]
  after_results
theorem B_arg6 : after hostOps0_1 Vp (Proc.devRef .tc main_arg6) = Vp (Proc.devRef .tc main_arg6) := by
  dsimp only [hostOps0_1]
  after_results
theorem B_arg7 : after hostOps0_1 Vp (Proc.devRef .tc main_arg7) = Vp (Proc.devRef .tc main_arg7) := by
  dsimp only [hostOps0_1]
  after_results
theorem B_arg8 : after hostOps0_1 Vp (Proc.devRef .tc main_arg8) = Vp (Proc.devRef .tc main_arg8) := by
  dsimp only [hostOps0_1]
  after_results

/-! ### `hostOps0_2` writes no argument array -/

theorem C_arg0 : after hostOps0_2 Vp (Proc.devRef .tc main_arg0) = Vp (Proc.devRef .tc main_arg0) := by
  dsimp only [hostOps0_2]
  after_results
theorem C_arg1 : after hostOps0_2 Vp (Proc.devRef .tc main_arg1) = Vp (Proc.devRef .tc main_arg1) := by
  dsimp only [hostOps0_2]
  after_results
theorem C_arg2 : after hostOps0_2 Vp (Proc.devRef .tc main_arg2) = Vp (Proc.devRef .tc main_arg2) := by
  dsimp only [hostOps0_2]
  after_results
theorem C_arg3 : after hostOps0_2 Vp (Proc.devRef .tc main_arg3) = Vp (Proc.devRef .tc main_arg3) := by
  dsimp only [hostOps0_2]
  after_results
theorem C_arg4 : after hostOps0_2 Vp (Proc.devRef .tc main_arg4) = Vp (Proc.devRef .tc main_arg4) := by
  dsimp only [hostOps0_2]
  after_results
theorem C_arg5 : after hostOps0_2 Vp (Proc.devRef .tc main_arg5) = Vp (Proc.devRef .tc main_arg5) := by
  dsimp only [hostOps0_2]
  after_results
theorem C_arg6 : after hostOps0_2 Vp (Proc.devRef .tc main_arg6) = Vp (Proc.devRef .tc main_arg6) := by
  dsimp only [hostOps0_2]
  after_results
theorem C_arg7 : after hostOps0_2 Vp (Proc.devRef .tc main_arg7) = Vp (Proc.devRef .tc main_arg7) := by
  dsimp only [hostOps0_2]
  after_results
theorem C_arg8 : after hostOps0_2 Vp (Proc.devRef .tc main_arg8) = Vp (Proc.devRef .tc main_arg8) := by
  dsimp only [hostOps0_2]
  after_results

/-! ### `hostOps0_3` writes no argument array -/

theorem D_arg0 : after hostOps0_3 Vp (Proc.devRef .tc main_arg0) = Vp (Proc.devRef .tc main_arg0) := by
  dsimp only [hostOps0_3]
  after_results
theorem D_arg1 : after hostOps0_3 Vp (Proc.devRef .tc main_arg1) = Vp (Proc.devRef .tc main_arg1) := by
  dsimp only [hostOps0_3]
  after_results
theorem D_arg2 : after hostOps0_3 Vp (Proc.devRef .tc main_arg2) = Vp (Proc.devRef .tc main_arg2) := by
  dsimp only [hostOps0_3]
  after_results
theorem D_arg3 : after hostOps0_3 Vp (Proc.devRef .tc main_arg3) = Vp (Proc.devRef .tc main_arg3) := by
  dsimp only [hostOps0_3]
  after_results
theorem D_arg4 : after hostOps0_3 Vp (Proc.devRef .tc main_arg4) = Vp (Proc.devRef .tc main_arg4) := by
  dsimp only [hostOps0_3]
  after_results
theorem D_arg5 : after hostOps0_3 Vp (Proc.devRef .tc main_arg5) = Vp (Proc.devRef .tc main_arg5) := by
  dsimp only [hostOps0_3]
  after_results
theorem D_arg6 : after hostOps0_3 Vp (Proc.devRef .tc main_arg6) = Vp (Proc.devRef .tc main_arg6) := by
  dsimp only [hostOps0_3]
  after_results
theorem D_arg7 : after hostOps0_3 Vp (Proc.devRef .tc main_arg7) = Vp (Proc.devRef .tc main_arg7) := by
  dsimp only [hostOps0_3]
  after_results
theorem D_arg8 : after hostOps0_3 Vp (Proc.devRef .tc main_arg8) = Vp (Proc.devRef .tc main_arg8) := by
  dsimp only [hostOps0_3]
  after_results

/-! ### `hostOps0_4` writes no argument array -/

theorem E_arg0 : after hostOps0_4 Vp (Proc.devRef .tc main_arg0) = Vp (Proc.devRef .tc main_arg0) := by
  dsimp only [hostOps0_4]
  after_results
theorem E_arg1 : after hostOps0_4 Vp (Proc.devRef .tc main_arg1) = Vp (Proc.devRef .tc main_arg1) := by
  dsimp only [hostOps0_4]
  after_results
theorem E_arg2 : after hostOps0_4 Vp (Proc.devRef .tc main_arg2) = Vp (Proc.devRef .tc main_arg2) := by
  dsimp only [hostOps0_4]
  after_results
theorem E_arg3 : after hostOps0_4 Vp (Proc.devRef .tc main_arg3) = Vp (Proc.devRef .tc main_arg3) := by
  dsimp only [hostOps0_4]
  after_results
theorem E_arg4 : after hostOps0_4 Vp (Proc.devRef .tc main_arg4) = Vp (Proc.devRef .tc main_arg4) := by
  dsimp only [hostOps0_4]
  after_results
theorem E_arg5 : after hostOps0_4 Vp (Proc.devRef .tc main_arg5) = Vp (Proc.devRef .tc main_arg5) := by
  dsimp only [hostOps0_4]
  after_results
theorem E_arg6 : after hostOps0_4 Vp (Proc.devRef .tc main_arg6) = Vp (Proc.devRef .tc main_arg6) := by
  dsimp only [hostOps0_4]
  after_results
theorem E_arg7 : after hostOps0_4 Vp (Proc.devRef .tc main_arg7) = Vp (Proc.devRef .tc main_arg7) := by
  dsimp only [hostOps0_4]
  after_results
theorem E_arg8 : after hostOps0_4 Vp (Proc.devRef .tc main_arg8) = Vp (Proc.devRef .tc main_arg8) := by
  dsimp only [hostOps0_4]
  after_results

theorem B_v0 : after hostOps0_1 Vp (Proc.devRef .tc main_v0) = Vp (Proc.devRef .tc main_v0) := by
  dsimp only [hostOps0_1]
  after_results
theorem C_v4 : after hostOps0_2 Vp (Proc.devRef .tc main_v4) = Vp (Proc.devRef .tc main_v4) := by
  dsimp only [hostOps0_2]
  after_results
theorem D_v4 : after hostOps0_3 Vp (Proc.devRef .tc main_v4) = Vp (Proc.devRef .tc main_v4) := by
  dsimp only [hostOps0_3]
  after_results

end Stretch

/-! ## Through the stretches, back to the launch memory -/

variable (m : (ℓ : Loc nD τ sig) → Buf (Elt Ideal) ℓ) (ρ : Dev nD → PrngReg)

theorem W4_arg0 (c : Dev nD) : W4 m ρ c (Proc.devRef .tc main_arg0) = m ((c : Thread nD τ).loc main_arg0) :=
  (D_arg0 (W3 m ρ c)).trans ((C_arg0 (W2 m ρ c)).trans ((B_arg0 (W1 m ρ c)).trans ((A_arg0 (W0 m ρ c)).trans rfl)))
theorem W5_arg0 (c : Dev nD) : W5 m ρ c (Proc.devRef .tc main_arg0) = m ((c : Thread nD τ).loc main_arg0) :=
  (E_arg0 (W4 m ρ c)).trans (W4_arg0 m ρ c)
theorem W4_arg1 (c : Dev nD) : W4 m ρ c (Proc.devRef .tc main_arg1) = m ((c : Thread nD τ).loc main_arg1) :=
  (D_arg1 (W3 m ρ c)).trans ((C_arg1 (W2 m ρ c)).trans ((B_arg1 (W1 m ρ c)).trans ((A_arg1 (W0 m ρ c)).trans rfl)))
theorem W5_arg1 (c : Dev nD) : W5 m ρ c (Proc.devRef .tc main_arg1) = m ((c : Thread nD τ).loc main_arg1) :=
  (E_arg1 (W4 m ρ c)).trans (W4_arg1 m ρ c)
theorem W4_arg2 (c : Dev nD) : W4 m ρ c (Proc.devRef .tc main_arg2) = m ((c : Thread nD τ).loc main_arg2) :=
  (D_arg2 (W3 m ρ c)).trans ((C_arg2 (W2 m ρ c)).trans ((B_arg2 (W1 m ρ c)).trans ((A_arg2 (W0 m ρ c)).trans rfl)))
theorem W5_arg2 (c : Dev nD) : W5 m ρ c (Proc.devRef .tc main_arg2) = m ((c : Thread nD τ).loc main_arg2) :=
  (E_arg2 (W4 m ρ c)).trans (W4_arg2 m ρ c)
theorem W4_arg3 (c : Dev nD) : W4 m ρ c (Proc.devRef .tc main_arg3) = m ((c : Thread nD τ).loc main_arg3) :=
  (D_arg3 (W3 m ρ c)).trans ((C_arg3 (W2 m ρ c)).trans ((B_arg3 (W1 m ρ c)).trans ((A_arg3 (W0 m ρ c)).trans rfl)))
theorem W5_arg3 (c : Dev nD) : W5 m ρ c (Proc.devRef .tc main_arg3) = m ((c : Thread nD τ).loc main_arg3) :=
  (E_arg3 (W4 m ρ c)).trans (W4_arg3 m ρ c)
theorem W4_arg4 (c : Dev nD) : W4 m ρ c (Proc.devRef .tc main_arg4) = m ((c : Thread nD τ).loc main_arg4) :=
  (D_arg4 (W3 m ρ c)).trans ((C_arg4 (W2 m ρ c)).trans ((B_arg4 (W1 m ρ c)).trans ((A_arg4 (W0 m ρ c)).trans rfl)))
theorem W5_arg4 (c : Dev nD) : W5 m ρ c (Proc.devRef .tc main_arg4) = m ((c : Thread nD τ).loc main_arg4) :=
  (E_arg4 (W4 m ρ c)).trans (W4_arg4 m ρ c)
theorem W4_arg5 (c : Dev nD) : W4 m ρ c (Proc.devRef .tc main_arg5) = m ((c : Thread nD τ).loc main_arg5) :=
  (D_arg5 (W3 m ρ c)).trans ((C_arg5 (W2 m ρ c)).trans ((B_arg5 (W1 m ρ c)).trans ((A_arg5 (W0 m ρ c)).trans rfl)))
theorem W5_arg5 (c : Dev nD) : W5 m ρ c (Proc.devRef .tc main_arg5) = m ((c : Thread nD τ).loc main_arg5) :=
  (E_arg5 (W4 m ρ c)).trans (W4_arg5 m ρ c)
theorem W4_arg6 (c : Dev nD) : W4 m ρ c (Proc.devRef .tc main_arg6) = m ((c : Thread nD τ).loc main_arg6) :=
  (D_arg6 (W3 m ρ c)).trans ((C_arg6 (W2 m ρ c)).trans ((B_arg6 (W1 m ρ c)).trans ((A_arg6 (W0 m ρ c)).trans rfl)))
theorem W5_arg6 (c : Dev nD) : W5 m ρ c (Proc.devRef .tc main_arg6) = m ((c : Thread nD τ).loc main_arg6) :=
  (E_arg6 (W4 m ρ c)).trans (W4_arg6 m ρ c)
theorem W4_arg7 (c : Dev nD) : W4 m ρ c (Proc.devRef .tc main_arg7) = m ((c : Thread nD τ).loc main_arg7) :=
  (D_arg7 (W3 m ρ c)).trans ((C_arg7 (W2 m ρ c)).trans ((B_arg7 (W1 m ρ c)).trans ((A_arg7 (W0 m ρ c)).trans rfl)))
theorem W5_arg7 (c : Dev nD) : W5 m ρ c (Proc.devRef .tc main_arg7) = m ((c : Thread nD τ).loc main_arg7) :=
  (E_arg7 (W4 m ρ c)).trans (W4_arg7 m ρ c)
theorem W4_arg8 (c : Dev nD) : W4 m ρ c (Proc.devRef .tc main_arg8) = m ((c : Thread nD τ).loc main_arg8) :=
  (D_arg8 (W3 m ρ c)).trans ((C_arg8 (W2 m ρ c)).trans ((B_arg8 (W1 m ρ c)).trans ((A_arg8 (W0 m ρ c)).trans rfl)))
theorem W5_arg8 (c : Dev nD) : W5 m ρ c (Proc.devRef .tc main_arg8) = m ((c : Thread nD τ).loc main_arg8) :=
  (E_arg8 (W4 m ρ c)).trans (W4_arg8 m ρ c)
theorem W2_arg2 (c : Dev nD) : W2 m ρ c (Proc.devRef .tc main_arg2) = m ((c : Thread nD τ).loc main_arg2) :=
  (B_arg2 (W1 m ρ c)).trans ((A_arg2 (W0 m ρ c)).trans rfl)

end Cert.KernelIdeal.HostKeep

end
-- ==== Proof.RefTerm.lean ====
/-
  The value the reference computes, written as one term of its argument arrays.

  A two-layer graph convolution with a linear classifier.  With o = outdeg^(-1/2) and i = indeg^(-1/2)
  (each degree clipped below at 1, a degree being the scatter-add of ones at the edge's end), one layer is

      h ↦ leaky ( ((scatter-add over dst of the rows (h · o)[src]) · i) W + b ),

  leaky x = x where x ≥ 0 and 0.01·x elsewhere, and the result is  leaky-layer₂(leaky-layer₁ x) Wc + bc.
  The pieces are named so that a statement about the program's run, and a statement about a kernel that
  computes one of the pieces, speak of the same terms: the degree factor, the aggregation of neighbours'
  rows, the dense layer, the classifier.
-/
import proofs.«130533_j26087631356715_1_alg».proof.Proof.Gen.ReferenceIdeal

noncomputable section

namespace Cert.ReferenceIdeal.Term

open Idealize.ShloMosaic Idealize.SL.Sem Cert.ReferenceIdeal Cert.ReferenceIdeal.Facts₀

variable {F : FTy → Type} [FloatOps F]

/-- deg^(-1/2) per node: the number of edges whose end (as listed in `idx`) is the node, at least 1, to the power -1/2. -/
def invSqrtDeg (idx : (⟨S1000000, .i32⟩ : BufTy).Contents (Elt F)) : (⟨S100000, .f32⟩ : BufTy).Contents (Elt F) :=
  Host.powf
    (maximumf (broadcastInDim S100000 ![] bcast_S_S100000 (id (constant S_ .f32 0x3F800000#32)))
      (Host.scatterAdd scatter_S100000_S1000000x1_S1000000_n_0_0_1
        (broadcastInDim S100000 ![] bcast_S_S100000 (constant S_ .f32 0x00000000#32))
        (broadcastInDim S1000000x1 ![0] bcast_S1000000_S1000000x1_0 idx)
        (broadcastInDim S1000000 ![] bcast_S_S1000000 (constant S_ .f32 0x3F800000#32))))
    (broadcastInDim S100000 ![] bcast_S_S100000 (constant S_ .f32 0xBF000000#32))

/-- The neighbours' rows summed: row v of the result is the sum over the edges u → v of row u of `h` times `col u`
    (a negative source number counts from the end, as the gather's index preparation has it). -/
def aggregate (h : (⟨S100000x64, .f32⟩ : BufTy).Contents (Elt F)) (col : (⟨S100000x1, .f32⟩ : BufTy).Contents (Elt F))
    (src dst : (⟨S1000000, .i32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164
      (mulf h (broadcastInDim S100000x64 ![0, 1] bcast_S100000x1_S100000x64_0_1 col))
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

/-- x where x ≥ 0, the slope f32(0.01) times x elsewhere, entry by entry. -/
def leaky (x : (⟨S100000x64, .f32⟩ : BufTy).Contents (Elt F)) : (⟨S100000x64, .f32⟩ : BufTy).Contents (Elt F) :=
  select (cmpf .oge x (broadcastInDim S100000x64 ![] bcast_S_S100000x64 (constant S_ .f32 0x00000000#32))) x
    (mulf (broadcastInDim S100000x64 ![] bcast_S_S100000x64 (id (constant S_ .f32 0x3C23D70A#32))) x)

/-- One dense layer: rows of `a` scaled by `col`, times `W`, plus the row `b`, through `leaky`. -/
def dense (a : (⟨S100000x64, .f32⟩ : BufTy).Contents (Elt F)) (col : (⟨S100000x1, .f32⟩ : BufTy).Contents (Elt F))
    (W : (⟨S64x64, .f32⟩ : BufTy).Contents (Elt F)) (b : (⟨S1x64, .f32⟩ : BufTy).Contents (Elt F)) :
    (⟨S100000x64, .f32⟩ : BufTy).Contents (Elt F) :=
  leaky (addf (Host.dotGeneral dot_S100000x64_S64x64_S100000x64_1_0_0_1_n_n none
      (mulf a (broadcastInDim S100000x64 ![0, 1] bcast_S100000x1_S100000x64_0_1 col)) W)
    (broadcastInDim S100000x64 ![0, 1] bcast_S1x64_S100000x64_0_1 b))

/-- The classifier: `h Wc` plus the row `b`. -/
def classify (h : (⟨S100000x64, .f32⟩ : BufTy).Contents (Elt F)) (Wc : (⟨S64x2, .f32⟩ : BufTy).Contents (Elt F))
    (b : (⟨S1x2, .f32⟩ : BufTy).Contents (Elt F)) : (⟨S100000x2, .f32⟩ : BufTy).Contents (Elt F) :=
  addf (Host.dotGeneral dot_S100000x64_S64x2_S100000x2_1_0_0_1_n_n none h Wc)
    (broadcastInDim S100000x2 ![0, 1] bcast_S1x2_S100000x2_0_1 b)

/-- A vector of per-node factors as a one-column matrix. -/
def asCol (v : (⟨S100000, .f32⟩ : BufTy).Contents (Elt F)) : (⟨S100000x1, .f32⟩ : BufTy).Contents (Elt F) :=
  broadcastInDim S100000x1 ![0] bcast_S100000_S100000x1_0 v

/-- The whole network on the argument arrays. -/
def out (x : (⟨S100000x64, .f32⟩ : BufTy).Contents (Elt F)) (src dst : (⟨S1000000, .i32⟩ : BufTy).Contents (Elt F))
    (W1 : (⟨S64x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F))
    (Wc : (⟨S64x2, .f32⟩ : BufTy).Contents (Elt F)) (bc : (⟨S2, .f32⟩ : BufTy).Contents (Elt F)) :
    (⟨S100000x2, .f32⟩ : BufTy).Contents (Elt F) :=
  classify
    (dense
      (aggregate
        (dense (aggregate x (asCol (invSqrtDeg src)) src dst) (asCol (invSqrtDeg dst)) W1
          (broadcastInDim S1x64 ![1] bcast_S64_S1x64_1 b1))
        (asCol (invSqrtDeg src)) src dst)
      (asCol (invSqrtDeg dst)) W2 (broadcastInDim S1x64 ![1] bcast_S64_S1x64_1 b2))
    Wc (broadcastInDim S1x2 ![1] bcast_S2_S1x2_1 bc)

end Cert.ReferenceIdeal.Term

end
-- ==== Proof.KerTerm.lean ====
/-
  The host side of the kernel program computes the degree factors and the aggregation of neighbours' rows by the same
  operations as the reference, over its own copies of the shape and dimension records.  The two spellings are the same
  functions: the records have the same fields, and the side conditions they carry are propositions.
-/
import proofs.«130533_j26087631356715_1_alg».proof.Proof.Gen.KernelIdeal
import proofs.«130533_j26087631356715_1_alg».proof.Proof.RefTerm

noncomputable section

namespace Cert.KernelIdeal.Term

open Idealize.ShloMosaic Idealize.SL.Sem Cert.KernelIdeal Cert.KernelIdeal.Facts₀

variable {F : FTy → Type} [FloatOps F]

/-- deg^(-1/2) per node, as the kernel program's host operations spell it. -/
def invSqrtDeg (idx : (⟨S1000000, .i32⟩ : BufTy).Contents (Elt F)) : (⟨S100000, .f32⟩ : BufTy).Contents (Elt F) :=
  Host.powf
    (maximumf (broadcastInDim S100000 ![] bcast_S_S100000 (id (constant S_ .f32 0x3F800000#32)))
      (Host.scatterAdd scatter_S100000_S1000000x1_S1000000_n_0_0_1
        (broadcastInDim S100000 ![] bcast_S_S100000 (constant S_ .f32 0x00000000#32))
        (broadcastInDim S1000000x1 ![0] bcast_S1000000_S1000000x1_0 idx)
        (broadcastInDim S1000000 ![] bcast_S_S1000000 (constant S_ .f32 0x3F800000#32))))
    (broadcastInDim S100000 ![] bcast_S_S100000 (constant S_ .f32 0xBF000000#32))

/-- The neighbours' rows summed, as the kernel program's host operations spell it. -/
def aggregate (h : (⟨S100000x64, .f32⟩ : BufTy).Contents (Elt F)) (col : (⟨S100000x1, .f32⟩ : BufTy).Contents (Elt F))
    (src dst : (⟨S1000000, .i32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164
      (mulf h (broadcastInDim S100000x64 ![0, 1] bcast_S100000x1_S100000x64_0_1 col))
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

theorem scatterVec_eq : scatter_S100000_S1000000x1_S1000000_n_0_0_1
    = Cert.ReferenceIdeal.scatter_S100000_S1000000x1_S1000000_n_0_0_1 := rfl
theorem scatterRows_eq : scatter_S100000x64_S1000000x1_S1000000x64_1_0_0_1
    = Cert.ReferenceIdeal.scatter_S100000x64_S1000000x1_S1000000x64_1_0_0_1 := rfl
theorem gatherRows_eq : gather_S100000x64_S1000000x1_S1000000x64_1_0_n_n_0_1_164
    = Cert.ReferenceIdeal.gather_S100000x64_S1000000x1_S1000000x64_1_0_n_n_0_1_164 := rfl

theorem invSqrtDeg_eq (idx : (⟨S1000000, .i32⟩ : BufTy).Contents (Elt F)) :
    invSqrtDeg idx = Cert.ReferenceIdeal.Term.invSqrtDeg idx := by
  unfold invSqrtDeg Cert.ReferenceIdeal.Term.invSqrtDeg
  rw [scatterVec_eq]

theorem aggregate_eq (h : (⟨S100000x64, .f32⟩ : BufTy).Contents (Elt F)) (col : (⟨S100000x1, .f32⟩ : BufTy).Contents (Elt F))
    (src dst : (⟨S1000000, .i32⟩ : BufTy).Contents (Elt F)) :
    aggregate h col src dst = Cert.ReferenceIdeal.Term.aggregate h col src dst := by
  unfold aggregate Cert.ReferenceIdeal.Term.aggregate
  rw [scatterRows_eq, gatherRows_eq]

end Cert.KernelIdeal.Term

end
-- ==== Proof.KernelHost.lean ====
/-
  The contents of the buffers the first kernel region is entered with, as functions of the argument arrays.

  Before the first region the host operations compute, from the edge lists, the two per-node factors
  outdeg^(-1/2) and indeg^(-1/2) — a degree is the scatter-add of ones at the edges' ends, clipped below at 1 — laid out
  as one-column matrices; the aggregation of the neighbours' rows of x · outdeg^(-1/2); and the bias as a one-row
  matrix.  Each stretch of operations is read from the contents it starts from, and the stretches are composed.
-/
import proofs.«130533_j26087631356715_1_alg».proof.Proof.HostKeep
import proofs.«130533_j26087631356715_1_alg».proof.Proof.KerTerm

set_option maxRecDepth 16384

noncomputable section

namespace Cert.KernelIdeal.HostValue

open Cert.KernelIdeal Cert.KernelIdeal.Gen Cert.KernelIdeal.HostKeep
open Idealize.ShloMosaic Idealize.ShloMosaic.TcCoe Idealize.SL.Sem Idealize.ShloMosaic.StableHlo

-- the scatter, the gather and the power are sums and searches over a million edges: an equation between two
-- spellings of one composition never looks inside them
attribute [local irreducible] Host.scatterAdd Host.gather Host.powf

/-! ## Each stretch from any contents -/

section Stretch
variable (Vp : Valuation τ sig (Elt Ideal))

/-- The out-degrees before clipping: ones scattered at the edges' sources. -/
theorem A_v3 : after hostOps0 Vp (Proc.devRef .tc main_v3)
    = Host.scatterAdd (F := Ideal) scatter_S100000_S1000000x1_S1000000_n_0_0_1
        (broadcastInDim S100000 ![] Facts₀.bcast_S_S100000 (constant S_ .f32 0x00000000#32))
        (broadcastInDim S1000000x1 ![0] Facts₀.bcast_S1000000_S1000000x1_0 (Vp (Proc.devRef .tc main_arg1)))
        (broadcastInDim S1000000 ![] Facts₀.bcast_S_S1000000 (constant S_ .f32 0x3F800000#32)) := by
  dsimp only [hostOps0]
  after_results <;> rfl

theorem A_cst1 : after hostOps0 Vp (Proc.devRef .tc main_cst_1) = constant (F := Ideal) S_ .f32 0x3F800000#32 := by
  dsimp only [hostOps0]
  after_results <;> rfl

/-- The vector of ones, one per edge. -/
theorem A_v0 : after hostOps0 Vp (Proc.devRef .tc main_v0)
    = broadcastInDim S1000000 ![] Facts₀.bcast_S_S1000000 (constant (F := Ideal) S_ .f32 0x3F800000#32) := by
  dsimp only [hostOps0]
  after_results <;> rfl

/-- The out-degrees clipped below at 1. -/
theorem B_v4 : after hostOps0_1 Vp (Proc.devRef .tc main_v4)
    = maximumf (F := Ideal) (φ := .f32) (broadcastInDim S100000 ![] Facts₀.bcast_S_S100000 (id (Vp (Proc.devRef .tc main_cst_1))))
        (Vp (Proc.devRef .tc main_v3)) := by
  dsimp only [hostOps0_1]
  after_results <;> rfl

/-- The in-degrees before clipping: the ones scattered at the edges' destinations. -/
theorem C_v7 : after hostOps0_2 Vp (Proc.devRef .tc main_v7)
    = Host.scatterAdd (F := Ideal) scatter_S100000_S1000000x1_S1000000_n_0_0_1
        (broadcastInDim S100000 ![] Facts₀.bcast_S_S100000 (constant S_ .f32 0x00000000#32))
        (broadcastInDim S1000000x1 ![0] Facts₀.bcast_S1000000_S1000000x1_0 (Vp (Proc.devRef .tc main_arg2)))
        (Vp (Proc.devRef .tc main_v0)) := by
  dsimp only [hostOps0_2]
  after_results <;> rfl

theorem C_cst3 : after hostOps0_2 Vp (Proc.devRef .tc main_cst_3) = constant (F := Ideal) S_ .f32 0x3F800000#32 := by
  dsimp only [hostOps0_2]
  after_results <;> rfl

/-- The in-degrees clipped below at 1. -/
theorem D_v8 : after hostOps0_3 Vp (Proc.devRef .tc main_v8)
    = maximumf (F := Ideal) (φ := .f32) (broadcastInDim S100000 ![] Facts₀.bcast_S_S100000 (id (Vp (Proc.devRef .tc main_cst_3))))
        (Vp (Proc.devRef .tc main_v7)) := by
  dsimp only [hostOps0_3]
  after_results <;> rfl

/-- outdeg^(-1/2) as a column. -/
theorem E_v11 : after hostOps0_4 Vp (Proc.devRef .tc main_v11)
    = shapeCast S100000x1 (Host.powf (F := Ideal) (Vp (Proc.devRef .tc main_v4))
        (broadcastInDim S100000 ![] Facts₀.bcast_S_S100000 (constant S_ .f32 0xBF000000#32))) Facts₀.shapeCasts_S100000_S100000x1 := by
  dsimp only [hostOps0_4]
  after_results <;> rfl

/-- indeg^(-1/2) as a column. -/
theorem E_v14 : after hostOps0_4 Vp (Proc.devRef .tc main_v14)
    = shapeCast S100000x1 (Host.powf (F := Ideal) (Vp (Proc.devRef .tc main_v8))
        (broadcastInDim S100000 ![] Facts₀.bcast_S_S100000 (constant S_ .f32 0xBF000000#32))) Facts₀.shapeCasts_S100000_S100000x1 := by
  dsimp only [hostOps0_4]
  after_results <;> rfl

/-- The first bias as a row. -/
theorem E_v27 : after hostOps0_4 Vp (Proc.devRef .tc main_v27)
    = shapeCast S1x64 (Vp (Proc.devRef .tc main_arg4)) Facts₀.shapeCasts_S64_S1x64 := by
  dsimp only [hostOps0_4]
  after_results <;> rfl

set_option maxHeartbeats 2000000 in
/-- The aggregated rows, from the argument arrays and the out-degree column the same stretch lays out. -/
theorem E_v26 : after hostOps0_4 Vp (Proc.devRef .tc main_v26)
    = Term.aggregate (Vp (Proc.devRef .tc main_arg0))
        (shapeCast S100000x1 (Host.powf (F := Ideal) (Vp (Proc.devRef .tc main_v4))
          (broadcastInDim S100000 ![] Facts₀.bcast_S_S100000 (constant S_ .f32 0xBF000000#32))) Facts₀.shapeCasts_S100000_S100000x1)
        (Vp (Proc.devRef .tc main_arg1)) (Vp (Proc.devRef .tc main_arg2)) := by
  dsimp only [hostOps0_4, Term.aggregate]
  after_results_simp <;> rfl

end Stretch

/-! ## Composed: on the argument arrays -/

variable (m : (ℓ : Loc nD τ sig) → Buf (Elt Ideal) ℓ) (ρ : Dev nD → PrngReg)

/-- outdeg^(-1/2) as a one-column matrix. -/
def ocol (c : Dev nD) : (⟨S100000x1, .f32⟩ : BufTy).Contents (Elt Ideal) :=
  shapeCast S100000x1 (Term.invSqrtDeg (m ((c : Thread nD τ).loc main_arg1))) Facts₀.shapeCasts_S100000_S100000x1
/-- indeg^(-1/2) as a one-column matrix. -/
def icol (c : Dev nD) : (⟨S100000x1, .f32⟩ : BufTy).Contents (Elt Ideal) :=
  shapeCast S100000x1 (Term.invSqrtDeg (m ((c : Thread nD τ).loc main_arg2))) Facts₀.shapeCasts_S100000_S100000x1

theorem W5_v11 (c : Dev nD) : W5 m ρ c (Proc.devRef .tc main_v11) = ocol m c := by
  have e5 : W5 m ρ c (Proc.devRef .tc main_v11) = _ := E_v11 (W4 m ρ c)
  have e4 : W4 m ρ c (Proc.devRef .tc main_v4) = _ := D_v4 (W3 m ρ c)
  have e3 : W3 m ρ c (Proc.devRef .tc main_v4) = _ := C_v4 (W2 m ρ c)
  have e2 : W2 m ρ c (Proc.devRef .tc main_v4) = _ := B_v4 (W1 m ρ c)
  have e1a : W1 m ρ c (Proc.devRef .tc main_cst_1) = _ := A_cst1 (W0 m ρ c)
  have e1b : W1 m ρ c (Proc.devRef .tc main_v3) = _ := A_v3 (W0 m ρ c)
  rw [e5, e4, e3, e2, e1a, e1b]
  rfl

theorem W5_v14 (c : Dev nD) : W5 m ρ c (Proc.devRef .tc main_v14) = icol m c := by
  have e5 : W5 m ρ c (Proc.devRef .tc main_v14) = _ := E_v14 (W4 m ρ c)
  have e4 : W4 m ρ c (Proc.devRef .tc main_v8) = _ := D_v8 (W3 m ρ c)
  have e3a : W3 m ρ c (Proc.devRef .tc main_cst_3) = _ := C_cst3 (W2 m ρ c)
  have e3b : W3 m ρ c (Proc.devRef .tc main_v7) = _ := C_v7 (W2 m ρ c)
  have e2 : W2 m ρ c (Proc.devRef .tc main_v0) = _ := B_v0 (W1 m ρ c)
  have e1 : W1 m ρ c (Proc.devRef .tc main_v0) = _ := A_v0 (W0 m ρ c)
  rw [e5, e4, e3a, e3b, W2_arg2, e2, e1]
  rfl

theorem W5_v27 (c : Dev nD) : W5 m ρ c (Proc.devRef .tc main_v27)
    = shapeCast S1x64 (m ((c : Thread nD τ).loc main_arg4)) Facts₀.shapeCasts_S64_S1x64 := by
  have e5 : W5 m ρ c (Proc.devRef .tc main_v27) = _ := E_v27 (W4 m ρ c)
  rw [e5, W4_arg4]

theorem W5_v26 (c : Dev nD) : W5 m ρ c (Proc.devRef .tc main_v26)
    = Term.aggregate (m ((c : Thread nD τ).loc main_arg0)) (ocol m c) (m ((c : Thread nD τ).loc main_arg1)) (m ((c : Thread nD τ).loc main_arg2)) := by
  have e5 : W5 m ρ c (Proc.devRef .tc main_v26) = _ := E_v26 (W4 m ρ c)
  have e11 : shapeCast S100000x1 (Host.powf (F := Ideal) (W4 m ρ c (Proc.devRef .tc main_v4))
      (broadcastInDim S100000 ![] Facts₀.bcast_S_S100000 (constant S_ .f32 0xBF000000#32))) Facts₀.shapeCasts_S100000_S100000x1
      = ocol m c := (E_v11 (W4 m ρ c)).symm.trans (W5_v11 m ρ c)
  rw [e5, e11, W4_arg0, W4_arg1, W4_arg2]

end Cert.KernelIdeal.HostValue

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.EntryMath.lean ====
/-
  One entry of a dense layer, on the extended reals.

  With lk v = v where v ≥ 0 and f32(0.01)·v elsewhere, entry (p, q) of a dense layer applied to rows a scaled by a
  column s, a weight matrix W and a bias row b is

      lk ( Σ_k (a(p,k) · s(p,0)) · W(k,q)  +  b(0,q) ),

  and entry (p, r) of the classifier applied to a layer's result h is  Σ_j h(p,j) · Wc(j,r) + bc(0,r).
  The same two formulas are read off the kernels' bodies (over a block of 5000 rows) and off the reference's host
  operations (over all 100000 rows): a matrix product accumulated into zero and a product with no accumulator are the
  same sum over the contracted coordinate, a change of float format is the identity, a column broadcast along the
  second axis reads its (p,0) entry and a row broadcast along the first its (0,q) entry.
-/
import proofs.«130533_j26087631356715_1_alg».proof.Proof.Gen.KernelIdeal.Skeleton
import proofs.«130533_j26087631356715_1_alg».proof.Proof.RefTerm
import proofs.«130533_j26087631356715_1_alg».proof.Proof.LibRank2Layout
import proofs.«130533_j26087631356715_1_alg».proof.Proof.LibBroadcastInDim2
import Idealize.ShloMosaic.Lib.StackMember
import Idealize.ShloMosaic.Lib.KernelVsHost

noncomputable section

namespace Cert.EntryMath

open Idealize.ShloMosaic Idealize.ShloMosaic.ValueIdx Idealize.ShloMosaic.StackMember

/-- v where v ≥ 0, the slope f32(0.01) times v elsewhere. -/
def lk (v : Ideal .f32) : Ideal .f32 :=
  Scalar.select (FloatOps.cmpf .oge v (Ideal.ofBits .f32 0x00000000#32)) v (Ideal.ofBits .f32 0x3C23D70A#32 * v)

/-- Entry (p, q) of a dense layer from row p of the inputs, its scale, column q of the weights and the bias at q. -/
def denseEntry (a : Fin 64 → Ideal .f32) (s : Ideal .f32) (W : Fin 64 → Ideal .f32) (b : Ideal .f32) : Ideal .f32 :=
  lk ((∑ k : Fin 64, (a k * s) * W k) + b)

/-! ## The kernels' bodies, over a block of 5000 rows -/

section Kernel
open Cert.KernelIdeal Cert.KernelIdeal.Gen

/-- A product of a 5000×64 block with a 64×n matrix accumulated into zero, at (p, q): the sum over the 64 contracted
    coordinates. -/
theorem matmul64_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  rw [matmul_zero_eq_dotGeneral]
  exact dotGeneral_plain_apply (m := 5000) (n := 64) (k := 64) none l r p q

theorem matmul2_apply (l : FVec Ideal S5000x64 .bf16) (r : FVec Ideal S64x2 .bf16) (p : Fin 5000) (q : Fin 2) :
    matmul dot_S5000x64_S64x2_S5000x2_1_0_0_1_n_n none l r (constant S5000x2 .f32 0x00000000#32) (ix2 p q)
      = ∑ k : Fin 64, l (ix2 p k) * r (ix2 k q) := by
  rw [matmul_zero_eq_dotGeneral]
  exact dotGeneral_plain_apply (m := 5000) (n := 2) (k := 64) none l r p q

/-- The first kernel's stored value at (p, q) of its block. -/
theorem pay0_apply (x0 : Vec Ideal S5000x64 .f32) (x1 : Vec Ideal S5000x1 .f32) (x2 : Vec Ideal S64x64 .f32)
    (x3 : Vec Ideal S1x64 .f32) (p : Fin 5000) (q : Fin 64) :
    k0_pay1 x0 x1 x2 x3 (ix2 p q)
      = denseEntry (fun k => x0 (ix2 p k)) (x1 (ix2 p (0 : Fin 1))) (fun k => x2 (ix2 k q)) (x3 (ix2 (0 : Fin 1) q)) := by
  unfold k0_pay1
  simp only [shapeCast_self]
  show lk (matmul dot_S5000x64_S64x64_S5000x64_1_0_0_1_n_n none
        (truncf .bf16 (mulf x0 (broadcastTo S5000x64 x1 broadcasts_S5000x1_S5000x64)) bitsLt_bf16_f32)
        (truncf .bf16 x2 bitsLt_bf16_f32) (constant S5000x64 .f32 0x00000000#32) (ix2 p q)
      + broadcastTo S5000x64 x3 broadcasts_S1x64_S5000x64 (ix2 p q)) = _
  rw [matmul64_apply, Rank2.bcastRow_apply]
  refine congrArg lk (congrArg (· + x3 (ix2 (0 : Fin 1) q)) (Finset.sum_congr rfl fun k _ => ?_))
  show (x0 (ix2 p k) * broadcastTo S5000x64 x1 broadcasts_S5000x1_S5000x64 (ix2 p k)) * x2 (ix2 k q) = _
  rw [Rank2.bcastCol_apply]

/-- The second kernel's stored value is the classifier's product over the first kernel's layer. -/
theorem pay1_eq (x0 : Vec Ideal S5000x64 .f32) (x1 : Vec Ideal S5000x1 .f32) (x2 : Vec Ideal S64x64 .f32)
    (x3 : Vec Ideal S1x64 .f32) (x4 : Vec Ideal S64x2 .f32) (x5 : Vec Ideal S1x2 .f32) :
    k1_pay1 x0 x1 x2 x3 x4 x5
      = addf (matmul dot_S5000x64_S64x2_S5000x2_1_0_0_1_n_n none (truncf .bf16 (k0_pay1 x0 x1 x2 x3) bitsLt_bf16_f32)
          (truncf .bf16 x4 bitsLt_bf16_f32) (constant S5000x2 .f32 0x00000000#32))
        (broadcastTo S5000x2 (shapeCast S1x2 x5 shapeCasts_S1x2_S1x2) broadcasts_S1x2_S5000x2) := rfl

/-- The second kernel's stored value at (p, r) of its block. -/
theorem pay1_apply (x0 : Vec Ideal S5000x64 .f32) (x1 : Vec Ideal S5000x1 .f32) (x2 : Vec Ideal S64x64 .f32)
    (x3 : Vec Ideal S1x64 .f32) (x4 : Vec Ideal S64x2 .f32) (x5 : Vec Ideal S1x2 .f32) (p : Fin 5000) (r : Fin 2) :
    k1_pay1 x0 x1 x2 x3 x4 x5 (ix2 p r)
      = (∑ j : Fin 64, denseEntry (fun k => x0 (ix2 p k)) (x1 (ix2 p (0 : Fin 1))) (fun k => x2 (ix2 k j))
            (x3 (ix2 (0 : Fin 1) j)) * x4 (ix2 j r)) + x5 (ix2 (0 : Fin 1) r) := by
  rw [pay1_eq, shapeCast_self]
  show matmul dot_S5000x64_S64x2_S5000x2_1_0_0_1_n_n none (truncf .bf16 (k0_pay1 x0 x1 x2 x3) bitsLt_bf16_f32)
        (truncf .bf16 x4 bitsLt_bf16_f32) (constant S5000x2 .f32 0x00000000#32) (ix2 p r)
      + broadcastTo S5000x2 x5 broadcasts_S1x2_S5000x2 (ix2 p r) = _
  rw [matmul2_apply, Rank2.bcastRow_apply]
  refine congrArg (· + x5 (ix2 (0 : Fin 1) r)) (Finset.sum_congr rfl fun j _ => ?_)
  show k0_pay1 x0 x1 x2 x3 (ix2 p j) * x4 (ix2 j r) = _
  rw [pay0_apply]

end Kernel

/-! ## The reference's host operations, over all 100000 rows -/

section Reference
open Cert.ReferenceIdeal Cert.ReferenceIdeal.Term

theorem leaky_apply (x : (⟨S100000x64, .f32⟩ : BufTy).Contents (Elt Ideal)) (i : S100000x64.Idx) :
    leaky x i = lk (x i) := rfl

/-- The dense layer of the reference at (p, q). -/
theorem dense_apply (a : (⟨S100000x64, .f32⟩ : BufTy).Contents (Elt Ideal)) (col : (⟨S100000x1, .f32⟩ : BufTy).Contents (Elt Ideal))
    (W : (⟨S64x64, .f32⟩ : BufTy).Contents (Elt Ideal)) (b : (⟨S1x64, .f32⟩ : BufTy).Contents (Elt Ideal))
    (p : Fin 100000) (q : Fin 64) :
    dense a col W b (ix2 p q)
      = denseEntry (fun k => a (ix2 p k)) (col (ix2 p (0 : Fin 1))) (fun k => W (ix2 k q)) (b (ix2 (0 : Fin 1) q)) := by
  unfold dense
  rw [leaky_apply]
  show lk (Host.dotGeneral (DotDims.plain 100000 64 64) none
        (mulf a (broadcastInDim S100000x64 ![0, 1] Facts₀.bcast_S100000x1_S100000x64_0_1 col)) W (ix2 p q)
      + broadcastInDim S100000x64 ![0, 1] Facts₀.bcast_S1x64_S100000x64_0_1 b (ix2 p q)) = _
  rw [dotGeneral_plain_apply, BroadcastInDim2.rowToMat_apply]
  refine congrArg lk (congrArg (· + b (ix2 (0 : Fin 1) q)) (Finset.sum_congr rfl fun k _ => ?_))
  show (a (ix2 p k) * broadcastInDim S100000x64 ![0, 1] Facts₀.bcast_S100000x1_S100000x64_0_1 col (ix2 p k)) * W (ix2 k q) = _
  rw [BroadcastInDim2.colToMat_apply]

/-- The classifier of the reference at (p, r). -/
theorem classify_apply (h : (⟨S100000x64, .f32⟩ : BufTy).Contents (Elt Ideal)) (Wc : (⟨S64x2, .f32⟩ : BufTy).Contents (Elt Ideal))
    (b : (⟨S1x2, .f32⟩ : BufTy).Contents (Elt Ideal)) (p : Fin 100000) (r : Fin 2) :
    classify h Wc b (ix2 p r) = (∑ j : Fin 64, h (ix2 p j) * Wc (ix2 j r)) + b (ix2 (0 : Fin 1) r) := by
  unfold classify
  show Host.dotGeneral (F := Ideal) (DotDims.plain 100000 64 2) none h Wc (ix2 p r)
      + broadcastInDim S100000x2 ![0, 1] Facts₀.bcast_S1x2_S100000x2_0_1 b (ix2 p r) = _
  rw [dotGeneral_plain_apply, BroadcastInDim2.rowToMat_apply]

end Reference

end Cert.EntryMath

end
-- ==== Proof.RegionValue.lean ====
/-
  What each kernel region leaves in its output array, as one function of the arrays it is entered with.

  Both regions walk the 100000 rows in 20 blocks of 5000: at point t the row-blocked windows (the aggregated
  features, the per-node scale column, the output) hold rows 5000·t … 5000·t + 4999, and the weight and bias
  windows hold their whole arrays.  An entry of the block a point writes back depends only on its own row of the
  inputs, so row p of block t is row 5000·t + p of the dense layer (for the second region: of the classifier over
  the dense layer) of the whole arrays; the 20 blocks cover the output array, so the array ends holding that
  function everywhere.
-/
import proofs.«130533_j26087631356715_1_alg».proof.Proof.Gen.KernelIdeal.Frame
import proofs.«130533_j26087631356715_1_alg».proof.Proof.EntryMath
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.EntryMath
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

theorem lt20 (t : Fin cfg0.N) : t.val < 20 := lt_of_lt_of_eq t.isLt N_0

/-- Block t of the row-blocked windows starts at row 5000·t; the weight and bias windows are their whole arrays. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block T of the kernel's value is row 5000·T + p of the dense layer of the whole arrays, when the blocks
    are the corresponding rows of those arrays. -/
theorem block0_entry (A : S100000x64.Idx → Ideal .f32) (S : S100000x1.Idx → Ideal .f32) (W : S64x64.Idx → Ideal .f32)
    (B : S1x64.Idx → Ideal .f32) (x0 : Vec Ideal S5000x64 .f32) (x1 : Vec Ideal S5000x1 .f32) (x2 : Vec Ideal S64x64 .f32)
    (x3 : Vec Ideal S1x64 .f32) (T : Nat) (hT : T < 20)
    (h0 : ∀ (p : Fin 5000) (k : Fin 64), x0 (ix2 p k) = A (ix2 (⟨T * 5000 + p.val, by omega⟩ : Fin 100000) k))
    (h1 : ∀ (p : Fin 5000), x1 (ix2 p (0 : Fin 1)) = S (ix2 (⟨T * 5000 + p.val, by omega⟩ : Fin 100000) (0 : Fin 1)))
    (h2 : ∀ (k q : Fin 64), x2 (ix2 k q) = W (ix2 k q)) (h3 : ∀ q : Fin 64, x3 (ix2 (0 : Fin 1) q) = B (ix2 (0 : Fin 1) q))
    (y : S5000x64.Idx) (i : S100000x64.Idx) (e0 : (i 0).val = T * 5000 + (y 0).val) (e1 : (i 1).val = (y 1).val) :
    k0_pay1 x0 x1 x2 x3 y = Cert.ReferenceIdeal.Term.dense (F := Ideal) A S W B i := by
  obtain ⟨p, q, rfl⟩ : ∃ (p : Fin 5000) (q : Fin 64), y = ix2 p q := ⟨y 0, y 1, eq_ix2 y⟩
  have hb : T * 5000 + p.val < 100000 := by have := p.isLt; omega
  obtain ⟨p', q', rfl⟩ : ∃ (p' : Fin 100000) (q' : Fin 64), i = ix2 p' q' := ⟨i 0, i 1, eq_ix2 i⟩
  have ep : p' = (⟨T * 5000 + p.val, hb⟩ : Fin 100000) := Fin.ext e0
  have eq : q' = q := Fin.ext e1
  subst ep eq
  rw [pay0_apply, dense_apply]
  simp only [h0, h1, h2, h3]

theorem flushed0 (c : Dev nD) (t : Fin cfg0.N) :
    (dat0 V c).flushed 4 t = ((cfg0.win 4).blk t).view.read (Elt Ideal)
      (Cert.ReferenceIdeal.Term.dense (F := Ideal) (V c main_v26) (V c main_v14) (V c main_arg3) (V c main_v27)) := by
  show (cfg0.win 4).cut (grid0.coords t) ((dat0 V c).after 4 t) = _
  rw [after0_4]
  unfold out0_4
  rw [View.canon_unit_zero zero2]
  simp only [View.ld_unit_zero (S := S5000x64) zero2, View.ld_unit_zero (S := S5000x1) zero2, View.ld_unit_zero (S := S64x64) zero2,
    View.ld_unit_zero (S := S1x64) zero2]
  obtain ⟨a00, a01, a10, a11, a20, a21, a30, a31, a40, a41⟩ := idx0 t
  funext j
  refine block0_entry (V c main_v26) (V c main_v14) (V c main_arg3) (V c main_v27) (iblk0 V c 0 t) (iblk0 V c 1 t) (iblk0 V c 2 t)
    (iblk0 V c 3 t) t.val (lt20 t) (fun p k => ?_) (fun p => ?_) (fun k q => ?_) (fun q => ?_)
    ((win0 4).xinj (grid0.coords t) j) (((cfg0.win 4).blk t).view.emb j) ?_ ?_
  · show V c main_v26 (((cfg0.win 0).blk t).view.emb (ix2 p k)) = _
    refine congrArg (V c main_v26) (funext fun a => Fin.ext ?_)
    match a with
    | ⟨0, _⟩ => show win0_0.index t (0 : Fin 2) * 5000 + 1 * p.val = t.val * 5000 + p.val; rw [a00]; omega
    | ⟨1, _⟩ => show win0_0.index t (1 : Fin 2) * 64 + 1 * k.val = k.val; rw [a01]; omega
  · show V c main_v14 (((cfg0.win 1).blk t).view.emb (ix2 p (0 : Fin 1))) = _
    refine congrArg (V c main_v14) (funext fun a => Fin.ext ?_)
    match a with
    | ⟨0, _⟩ => show win0_1.index t (0 : Fin 2) * 5000 + 1 * p.val = t.val * 5000 + p.val; rw [a10]; omega
    | ⟨1, _⟩ => show win0_1.index t (1 : Fin 2) * 1 + 1 * 0 = 0; rw [a11]
  · show V c main_arg3 (((cfg0.win 2).blk t).view.emb (ix2 k q)) = _
    refine congrArg (V c main_arg3) (funext fun a => Fin.ext ?_)
    match a with
    | ⟨0, _⟩ => show win0_2.index t (0 : Fin 2) * 64 + 1 * k.val = k.val; rw [a20]; omega
    | ⟨1, _⟩ => show win0_2.index t (1 : Fin 2) * 64 + 1 * q.val = q.val; rw [a21]; omega
  · show V c main_v27 (((cfg0.win 3).blk t).view.emb (ix2 (0 : Fin 1) q)) = _
    refine congrArg (V c main_v27) (funext fun a => Fin.ext ?_)
    match a with
    | ⟨0, _⟩ => show win0_3.index t (0 : Fin 2) * 1 + 1 * 0 = 0; rw [a30]
    | ⟨1, _⟩ => show win0_3.index t (1 : Fin 2) * 64 + 1 * q.val = q.val; rw [a31]; omega
  · show win0_4.index t (0 : Fin 2) * 5000 + 1 * (j 0).val = t.val * 5000 + (j 0).val
    rw [a40]; omega
  · show win0_4.index t (1 : Fin 2) * 64 + 1 * (j 1).val = (j 1).val
    rw [a41]; omega

/-- An index of the output array is in point t's block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v28).slice (win0_4.rect t)).set ↔ _
  rw [View.set_slice_whole, Rect.mem_set_unit]
  exact Iff.rfl

/-- Row r of the output is in the block of point r / 5000. -/
theorem cover0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, -, -, a40, a41⟩ := idx0 t
  refine ⟨t, flush0_4 t, ?_⟩
  rw [mem_blk0]
  intro a
  match a with
  | ⟨0, _⟩ =>
    show win0_4.index t (0 : Fin 2) * 5000 ≤ (i 0).val ∧ (i 0).val < win0_4.index t (0 : Fin 2) * 5000 + 5000
    rw [a40, ht]; omega
  | ⟨1, _⟩ =>
    show win0_4.index t (1 : Fin 2) * 64 ≤ (i 1).val ∧ (i 1).val < win0_4.index t (1 : Fin 2) * 64 + 64
    rw [a41]; omega

/-- THE FIRST REGION's output array after the run: the dense layer of the arrays the region is entered with. -/
theorem layer1_array (c : Dev nD) :
    (dat0 V c).arrAt 4 cfg0.N
      = Cert.ReferenceIdeal.Term.dense (F := Ideal) (V c main_v26) (V c main_v14) (V c main_arg3) (V c main_v27) :=
  (dat0 V c).arrAt_eq_of_cover 4 _ (fun t _ => flushed0 V c t) cover0

/-! ## The second region -/

theorem lt20' (t : Fin cfg1.N) : t.val < 20 := lt_of_lt_of_eq t.isLt N_1

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block T of the second kernel's value is row 5000·T + p of the classifier over the dense layer. -/
theorem block1_entry (A : S100000x64.Idx → Ideal .f32) (S : S100000x1.Idx → Ideal .f32) (W : S64x64.Idx → Ideal .f32)
    (B : S1x64.Idx → Ideal .f32) (Wc : S64x2.Idx → Ideal .f32) (Bc : S1x2.Idx → Ideal .f32)
    (x0 : Vec Ideal S5000x64 .f32) (x1 : Vec Ideal S5000x1 .f32) (x2 : Vec Ideal S64x64 .f32)
    (x3 : Vec Ideal S1x64 .f32) (x4 : Vec Ideal S64x2 .f32) (x5 : Vec Ideal S1x2 .f32) (T : Nat) (hT : T < 20)
    (h0 : ∀ (p : Fin 5000) (k : Fin 64), x0 (ix2 p k) = A (ix2 (⟨T * 5000 + p.val, by omega⟩ : Fin 100000) k))
    (h1 : ∀ (p : Fin 5000), x1 (ix2 p (0 : Fin 1)) = S (ix2 (⟨T * 5000 + p.val, by omega⟩ : Fin 100000) (0 : Fin 1)))
    (h2 : ∀ (k q : Fin 64), x2 (ix2 k q) = W (ix2 k q)) (h3 : ∀ q : Fin 64, x3 (ix2 (0 : Fin 1) q) = B (ix2 (0 : Fin 1) q))
    (h4 : ∀ (k : Fin 64) (r : Fin 2), x4 (ix2 k r) = Wc (ix2 k r)) (h5 : ∀ r : Fin 2, x5 (ix2 (0 : Fin 1) r) = Bc (ix2 (0 : Fin 1) r))
    (y : S5000x2.Idx) (i : S100000x2.Idx) (e0 : (i 0).val = T * 5000 + (y 0).val) (e1 : (i 1).val = (y 1).val) :
    k1_pay1 x0 x1 x2 x3 x4 x5 y
      = Cert.ReferenceIdeal.Term.classify (F := Ideal) (Cert.ReferenceIdeal.Term.dense (F := Ideal) A S W B) Wc Bc i := by
  obtain ⟨p, r, rfl⟩ : ∃ (p : Fin 5000) (r : Fin 2), y = ix2 p r := ⟨y 0, y 1, eq_ix2 y⟩
  have hb : T * 5000 + p.val < 100000 := by have := p.isLt; omega
  obtain ⟨p', r', rfl⟩ : ∃ (p' : Fin 100000) (r' : Fin 2), i = ix2 p' r' := ⟨i 0, i 1, eq_ix2 i⟩
  have ep : p' = (⟨T * 5000 + p.val, hb⟩ : Fin 100000) := Fin.ext e0
  have er : r' = r := Fin.ext e1
  subst ep er
  rw [pay1_apply, classify_apply]
  simp only [dense_apply, h0, h1, h2, h3, h4, h5]

theorem flushed1 (c : Dev nD) (t : Fin cfg1.N) :
    (dat1 V c).flushed 6 t = ((cfg1.win 6).blk t).view.read (Elt Ideal)
      (Cert.ReferenceIdeal.Term.classify (F := Ideal)
        (Cert.ReferenceIdeal.Term.dense (F := Ideal) (V c main_v40) (V c main_v14) (V c main_arg5) (V c main_v41))
        (V c main_arg7) (V c main_v42)) := by
  show (cfg1.win 6).cut (grid1.coords t) ((dat1 V c).after 6 t) = _
  rw [after1_6]
  unfold out1_6
  rw [View.canon_unit_zero zero2]
  simp only [View.ld_unit_zero (S := S5000x64) zero2, View.ld_unit_zero (S := S5000x1) zero2, View.ld_unit_zero (S := S64x64) zero2,
    View.ld_unit_zero (S := S1x64) zero2, View.ld_unit_zero (S := S64x2) zero2, View.ld_unit_zero (S := S1x2) zero2]
  obtain ⟨a00, a01, a10, a11, a20, a21, a30, a31, a40, a41, a50, a51, a60, a61⟩ := idx1 t
  funext j
  refine block1_entry (V c main_v40) (V c main_v14) (V c main_arg5) (V c main_v41) (V c main_arg7) (V c main_v42)
    (iblk1 V c 0 t) (iblk1 V c 1 t) (iblk1 V c 2 t) (iblk1 V c 3 t) (iblk1 V c 4 t) (iblk1 V c 5 t) t.val (lt20' t)
    (fun p k => ?_) (fun p => ?_) (fun k q => ?_) (fun q => ?_) (fun k r => ?_) (fun r => ?_)
    ((win1 6).xinj (grid1.coords t) j) (((cfg1.win 6).blk t).view.emb j) ?_ ?_
  · show V c main_v40 (((cfg1.win 0).blk t).view.emb (ix2 p k)) = _
    refine congrArg (V c main_v40) (funext fun a => Fin.ext ?_)
    match a with
    | ⟨0, _⟩ => show win1_0.index t (0 : Fin 2) * 5000 + 1 * p.val = t.val * 5000 + p.val; rw [a00]; omega
    | ⟨1, _⟩ => show win1_0.index t (1 : Fin 2) * 64 + 1 * k.val = k.val; rw [a01]; omega
  · show V c main_v14 (((cfg1.win 1).blk t).view.emb (ix2 p (0 : Fin 1))) = _
    refine congrArg (V c main_v14) (funext fun a => Fin.ext ?_)
    match a with
    | ⟨0, _⟩ => show win1_1.index t (0 : Fin 2) * 5000 + 1 * p.val = t.val * 5000 + p.val; rw [a10]; omega
    | ⟨1, _⟩ => show win1_1.index t (1 : Fin 2) * 1 + 1 * 0 = 0; rw [a11]
  · show V c main_arg5 (((cfg1.win 2).blk t).view.emb (ix2 k q)) = _
    refine congrArg (V c main_arg5) (funext fun a => Fin.ext ?_)
    match a with
    | ⟨0, _⟩ => show win1_2.index t (0 : Fin 2) * 64 + 1 * k.val = k.val; rw [a20]; omega
    | ⟨1, _⟩ => show win1_2.index t (1 : Fin 2) * 64 + 1 * q.val = q.val; rw [a21]; omega
  · show V c main_v41 (((cfg1.win 3).blk t).view.emb (ix2 (0 : Fin 1) q)) = _
    refine congrArg (V c main_v41) (funext fun a => Fin.ext ?_)
    match a with
    | ⟨0, _⟩ => show win1_3.index t (0 : Fin 2) * 1 + 1 * 0 = 0; rw [a30]
    | ⟨1, _⟩ => show win1_3.index t (1 : Fin 2) * 64 + 1 * q.val = q.val; rw [a31]; omega
  · show V c main_arg7 (((cfg1.win 4).blk t).view.emb (ix2 k r)) = _
    refine congrArg (V c main_arg7) (funext fun a => Fin.ext ?_)
    match a with
    | ⟨0, _⟩ => show win1_4.index t (0 : Fin 2) * 64 + 1 * k.val = k.val; rw [a40]; omega
    | ⟨1, _⟩ => show win1_4.index t (1 : Fin 2) * 2 + 1 * r.val = r.val; rw [a41]; omega
  · show V c main_v42 (((cfg1.win 5).blk t).view.emb (ix2 (0 : Fin 1) r)) = _
    refine congrArg (V c main_v42) (funext fun a => Fin.ext ?_)
    match a with
    | ⟨0, _⟩ => show win1_5.index t (0 : Fin 2) * 1 + 1 * 0 = 0; rw [a50]
    | ⟨1, _⟩ => show win1_5.index t (1 : Fin 2) * 2 + 1 * r.val = r.val; rw [a51]; omega
  · show win1_6.index t (0 : Fin 2) * 5000 + 1 * (j 0).val = t.val * 5000 + (j 0).val
    rw [a60]; omega
  · show win1_6.index t (1 : Fin 2) * 2 + 1 * (j 1).val = (j 1).val
    rw [a61]; omega

theorem mem_blk1 (t : Fin cfg1.N) (i : S100000x2.Idx) :
    i ∈ ((cfg1.win 6).blk t).view.set ↔ ∀ a : Fin 2, win1_6.index t a * S5000x2.size a ≤ (i a).val
      ∧ (i a).val < win1_6.index t a * S5000x2.size a + S5000x2.size a := by
  show i ∈ ((View.whole main_v43).slice (win1_6.rect t)).set ↔ _
  rw [View.set_slice_whole, Rect.mem_set_unit]
  exact Iff.rfl

theorem cover1 (i : S100000x2.Idx) :
    ∃ t : Fin cfg1.N, (cfg1.win 6).flush t = true ∧ i ∈ ((cfg1.win 6).blk t).view.set := by
  have hi0 : (i 0).val < 100000 := (i 0).isLt
  have hi1 : (i 1).val < 2 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, -, -, -, a60, a61⟩ := idx1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [a60, ht]; omega
  | ⟨1, _⟩ =>
    show win1_6.index t (1 : Fin 2) * 2 ≤ (i 1).val ∧ (i 1).val < win1_6.index t (1 : Fin 2) * 2 + 2
    rw [a61]; omega

/-- THE SECOND REGION's output array after the run: the classifier over the dense layer of the arrays it is entered with. -/
theorem layer2_array (c : Dev nD) :
    (dat1 V c).arrAt 6 cfg1.N
      = Cert.ReferenceIdeal.Term.classify (F := Ideal)
          (Cert.ReferenceIdeal.Term.dense (F := Ideal) (V c main_v40) (V c main_v14) (V c main_arg5) (V c main_v41))
          (V c main_arg7) (V c main_v42) :=
  (dat1 V c).arrAt_eq_of_cover 6 _ (fun t _ => flushed1 V c t) cover1

end Cert.KernelIdeal.RegionValue
end
-- ==== Proof.KernelValue.lean ====
/-
  The idealized kernel program's result as one term of its argument arrays.

  The first region leaves the dense layer of the aggregated rows; the host operations between the regions aggregate the
  neighbours' rows of that layer times outdeg^(-1/2); the second region leaves the classifier over the second dense
  layer.  Each step is read at the contents the step before leaves, and the contents of the buffers a step does not
  write are carried along.
-/
import proofs.«130533_j26087631356715_1_alg».proof.Proof.KernelHost
import proofs.«130533_j26087631356715_1_alg».proof.Proof.RegionValue

set_option maxRecDepth 16384
set_option Elab.async false

noncomputable section

namespace Cert.KernelIdeal.Value

open Cert.KernelIdeal Cert.KernelIdeal.Gen Cert.KernelIdeal.HostValue Cert.KernelIdeal.HostKeep
open Idealize.ShloMosaic Idealize.ShloMosaic.TcCoe Idealize.SL.Sem Idealize.ShloMosaic.StableHlo

variable (m : (ℓ : Loc nD τ sig) → Buf (Elt Ideal) ℓ) (ρ : Dev nD → PrngReg)

-- the scatter, the gather and the power are sums and searches over a million edges: an equation between two
-- spellings of one composition never looks inside them
attribute [local irreducible] Host.scatterAdd Host.gather Host.powf

/-- The first dense layer on the argument arrays. -/
def layer1 (c : Dev nD) : (⟨S100000x64, .f32⟩ : BufTy).Contents (Elt Ideal) :=
  Cert.ReferenceIdeal.Term.dense (F := Ideal) (Term.aggregate (m ((c : Thread nD τ).loc main_arg0)) (ocol m c) (m ((c : Thread nD τ).loc main_arg1)) (m ((c : Thread nD τ).loc main_arg2))) (icol m c)
    (m ((c : Thread nD τ).loc main_arg3)) (shapeCast S1x64 (m ((c : Thread nD τ).loc main_arg4)) Facts₀.shapeCasts_S64_S1x64)

/-- The first region's output array is the first dense layer. -/
theorem W6_v28 (c : Dev nD) : W6 m ρ c (Proc.devRef .tc main_v28) = layer1 m c := by
  have h : W6 m ρ c (Proc.devRef .tc main_v28)
      = Cert.ReferenceIdeal.Term.dense (F := Ideal) (V5 m ρ c main_v26) (V5 m ρ c main_v14) (V5 m ρ c main_arg3) (V5 m ρ c main_v27) :=
    (W6_arr m ρ c 4).trans (RegionValue.layer1_array (V5 m ρ) c)
  rw [h]
  show Cert.ReferenceIdeal.Term.dense (F := Ideal) (W5 m ρ c (Proc.devRef .tc main_v26)) (W5 m ρ c (Proc.devRef .tc main_v14))
    (W5 m ρ c (Proc.devRef .tc main_arg3)) (W5 m ρ c (Proc.devRef .tc main_v27)) = _
  rw [W5_v26, W5_v14, W5_arg3, W5_v27]
  rfl

/-- The scale column is an input window of the first region: its array ends as entered. -/
theorem W6_v14 (c : Dev nD) : W6 m ρ c (Proc.devRef .tc main_v14) = W5 m ρ c (Proc.devRef .tc main_v14) :=
  (W6_arr m ρ c 1).trans (((dat0 (V5 m ρ) c).arrAt_in 1 rfl cfg0.N).trans (A_eq0 (V5 m ρ) c 1))

/-! ## The stretch between the regions, from any contents -/

section Stretch
variable (Vp : Valuation τ sig (Elt Ideal))

set_option maxHeartbeats 2000000 in
theorem between_v40 : after hostOps1 Vp (Proc.devRef .tc main_v40)
    = Term.aggregate (Vp (Proc.devRef .tc main_v28)) (Vp (Proc.devRef .tc main_v11)) (Vp (Proc.devRef .tc main_arg1))
        (Vp (Proc.devRef .tc main_arg2)) := by
  dsimp only [hostOps1, Term.aggregate]
  after_results_simp <;> rfl

theorem between_v41 : after hostOps1 Vp (Proc.devRef .tc main_v41)
    = shapeCast S1x64 (Vp (Proc.devRef .tc main_arg6)) Facts₀.shapeCasts_S64_S1x64 := by
  dsimp only [hostOps1]
  after_results <;> rfl

theorem between_v42 : after hostOps1 Vp (Proc.devRef .tc main_v42)
    = shapeCast S1x2 (Vp (Proc.devRef .tc main_arg8)) Facts₀.shapeCasts_S2_S1x2 := by
  dsimp only [hostOps1]
  after_results <;> rfl

theorem between_v14 : after hostOps1 Vp (Proc.devRef .tc main_v14) = Vp (Proc.devRef .tc main_v14) := by
  dsimp only [hostOps1]
  after_results

theorem between_arg5 : after hostOps1 Vp (Proc.devRef .tc main_arg5) = Vp (Proc.devRef .tc main_arg5) := by
  dsimp only [hostOps1]
  after_results

theorem between_arg7 : after hostOps1 Vp (Proc.devRef .tc main_arg7) = Vp (Proc.devRef .tc main_arg7) := by
  dsimp only [hostOps1]
  after_results

end Stretch

/-- The kernel program's result on the argument arrays. -/
def result (c : Dev nD) : (⟨S100000x2, .f32⟩ : BufTy).Contents (Elt Ideal) :=
  Cert.ReferenceIdeal.Term.classify (F := Ideal)
    (Cert.ReferenceIdeal.Term.dense (F := Ideal) (Term.aggregate (layer1 m c) (ocol m c) (m ((c : Thread nD τ).loc main_arg1)) (m ((c : Thread nD τ).loc main_arg2))) (icol m c)
      (m ((c : Thread nD τ).loc main_arg5)) (shapeCast S1x64 (m ((c : Thread nD τ).loc main_arg6)) Facts₀.shapeCasts_S64_S1x64))
    (m ((c : Thread nD τ).loc main_arg7)) (shapeCast S1x2 (m ((c : Thread nD τ).loc main_arg8)) Facts₀.shapeCasts_S2_S1x2)

/-- The last boundary's contents at the result buffer. -/
theorem W8_v43 (c : Dev nD) : W8 m ρ c (Proc.devRef .tc main_v43) = result m c := by
  have h : W8 m ρ c (Proc.devRef .tc main_v43)
      = Cert.ReferenceIdeal.Term.classify (F := Ideal)
          (Cert.ReferenceIdeal.Term.dense (F := Ideal) (V7 m ρ c main_v40) (V7 m ρ c main_v14) (V7 m ρ c main_arg5) (V7 m ρ c main_v41))
          (V7 m ρ c main_arg7) (V7 m ρ c main_v42) :=
    (W8_arr m ρ c 6).trans (RegionValue.layer2_array (V7 m ρ) c)
  have e40 : V7 m ρ c main_v40 = _ := between_v40 (W6 m ρ c)
  have e41 : V7 m ρ c main_v41 = _ := between_v41 (W6 m ρ c)
  have e42 : V7 m ρ c main_v42 = _ := between_v42 (W6 m ρ c)
  have e14 : V7 m ρ c main_v14 = _ := between_v14 (W6 m ρ c)
  have e5 : V7 m ρ c main_arg5 = _ := between_arg5 (W6 m ρ c)
  have e7 : V7 m ρ c main_arg7 = _ := between_arg7 (W6 m ρ c)
  rw [h, e40, e41, e42, e14, e5, e7, W6_v28,
    W6_of_ne m ρ c main_v11 (by decide), W6_v14, W6_of_ne m ρ c main_arg1 (by decide),
    W6_of_ne m ρ c main_arg2 (by decide), W6_of_ne m ρ c main_arg5 (by decide), W6_of_ne m ρ c main_arg6 (by decide),
    W6_of_ne m ρ c main_arg7 (by decide), W6_of_ne m ρ c main_arg8 (by decide),
    W5_v11, W5_v14, W5_arg1, W5_arg2, W5_arg5, W5_arg6, W5_arg7, W5_arg8]
  rfl

end Cert.KernelIdeal.Value

end
-- ==== Proof.LibReshapeVec.lean ====
/-
  A vector reshaped to a one-column or a one-row matrix is the vector broadcast in dimension 0, respectively 1, for
  any length: `reshape [a] → [a, 1]` against `broadcast_in_dim dims = [0]`, and `reshape [b] → [1, b]` against
  `broadcast_in_dim dims = [1]`.  Entry (p, 0) of either column is entry p of the vector, entry (0, q) of either row
  is entry q: the reshape by the row-major position (p·1 + 0 = p, 0·b + q = q), the broadcast by its index map.
-/
import Idealize.ShloMosaic.Lib.ValueIdx
import Idealize.ShloMosaic.Lib.Pipeline.Value
import proofs.«130533_j26087631356715_1_alg».proof.Proof.LibBroadcastInDim2

namespace Idealize.ShloMosaic.ReshapeVec

open Idealize.ShloMosaic Idealize.ShloMosaic.ValueIdx

variable {α : Type}

/-- A vector reshaped to a column is the vector broadcast along dimension 0 of the column. -/
theorem reshapeCol_eq_broadcastInDim {a : Nat} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast (⟨2, ![a, 1]⟩ : Shape) v h = broadcastInDim (⟨2, ![a, 1]⟩ : Shape) (![0] : Fin 1 → Fin 2) h' v := by
  funext i
  obtain ⟨p, z, rfl⟩ : ∃ (p : Fin a) (z : Fin 1), i = ix2 p z := ⟨i 0, i 1, eq_ix2 i⟩
  rw [BroadcastInDim2.vecToCol_apply]
  obtain rfl : z = 0 := Fin.ext (by have := z.isLt; omega)
  exact shapeCast_apply v h (ix2 p (0 : Fin 1)) (ix1 p) (by
    rw [Shape.rowMajor_val_two, Shape.rowMajor_val_one]; show p.val = p.val * 1 + 0; omega)

/-- A vector reshaped to a row is the vector broadcast along dimension 1 of the row. -/
theorem reshapeRow_eq_broadcastInDim {b : Nat} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast (⟨2, ![1, b]⟩ : Shape) v h = broadcastInDim (⟨2, ![1, b]⟩ : Shape) (![1] : Fin 1 → Fin 2) h' v := by
  funext i
  obtain ⟨z, q, rfl⟩ : ∃ (z : Fin 1) (q : Fin b), i = ix2 z q := ⟨i 0, i 1, eq_ix2 i⟩
  rw [BroadcastInDim2.vecToRow_apply]
  obtain rfl : z = 0 := Fin.ext (by have := z.isLt; omega)
  exact shapeCast_apply v h (ix2 (0 : Fin 1) q) (ix1 q) (by
    rw [Shape.rowMajor_val_two, Shape.rowMajor_val_one]; show q.val = 0 * b + q.val; omega)

end Idealize.ShloMosaic.ReshapeVec
-- ==== Proof.Bridge.lean ====
/-
  The kernel program's result and the reference's result are one function of the argument arrays.

  Both are  classifier(dense₂(aggregate(dense₁(aggregate(x))))), with the same degree factors.  They differ in two
  spellings only: the kernel program lays a per-node factor out as a column, and a bias as a row, by a reshape, where the
  reference broadcasts the vector in a dimension — the same matrices, entry by entry; and each program carries its
  own copy of the scatter's and the gather's dimension records — the same records.
-/
import proofs.«130533_j26087631356715_1_alg».proof.Proof.KernelValue
import proofs.«130533_j26087631356715_1_alg».proof.Proof.LibReshapeVec

set_option maxRecDepth 16384

noncomputable section

namespace Cert.Bridge

open Idealize.ShloMosaic Idealize.ShloMosaic.TcCoe Idealize.SL.Sem

attribute [local irreducible] Host.scatterAdd Host.gather Host.powf

theorem result_eq_out (m : (ℓ : Loc Cert.KernelIdeal.nD Cert.KernelIdeal.τ Cert.KernelIdeal.sig) → Buf (Elt Ideal) ℓ) (c : Dev Cert.KernelIdeal.nD) :
    Cert.KernelIdeal.Value.result m c
      = Cert.ReferenceIdeal.Term.out (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  unfold Cert.KernelIdeal.Value.result Cert.KernelIdeal.Value.layer1 Cert.KernelIdeal.HostValue.ocol Cert.KernelIdeal.HostValue.icol Cert.ReferenceIdeal.Term.out Cert.ReferenceIdeal.Term.asCol
  rw [Cert.KernelIdeal.Term.aggregate_eq, Cert.KernelIdeal.Term.aggregate_eq, Cert.KernelIdeal.Term.invSqrtDeg_eq, Cert.KernelIdeal.Term.invSqrtDeg_eq]
  rw [ReshapeVec.reshapeCol_eq_broadcastInDim (a := 100000) (Cert.ReferenceIdeal.Term.invSqrtDeg (F := Ideal) (m ((c : Thread Cert.KernelIdeal.nD Cert.KernelIdeal.τ).loc Cert.KernelIdeal.main_arg1)))
        Cert.KernelIdeal.Facts₀.shapeCasts_S100000_S100000x1 Cert.ReferenceIdeal.Facts₀.bcast_S100000_S100000x1_0,
    ReshapeVec.reshapeCol_eq_broadcastInDim (a := 100000) (Cert.ReferenceIdeal.Term.invSqrtDeg (F := Ideal) (m ((c : Thread Cert.KernelIdeal.nD Cert.KernelIdeal.τ).loc Cert.KernelIdeal.main_arg2)))
        Cert.KernelIdeal.Facts₀.shapeCasts_S100000_S100000x1 Cert.ReferenceIdeal.Facts₀.bcast_S100000_S100000x1_0,
    ReshapeVec.reshapeRow_eq_broadcastInDim (b := 64) (m ((c : Thread Cert.KernelIdeal.nD Cert.KernelIdeal.τ).loc Cert.KernelIdeal.main_arg4))
        Cert.KernelIdeal.Facts₀.shapeCasts_S64_S1x64 Cert.ReferenceIdeal.Facts₀.bcast_S64_S1x64_1,
    ReshapeVec.reshapeRow_eq_broadcastInDim (b := 64) (m ((c : Thread Cert.KernelIdeal.nD Cert.KernelIdeal.τ).loc Cert.KernelIdeal.main_arg6))
        Cert.KernelIdeal.Facts₀.shapeCasts_S64_S1x64 Cert.ReferenceIdeal.Facts₀.bcast_S64_S1x64_1,
    ReshapeVec.reshapeRow_eq_broadcastInDim (b := 2) (m ((c : Thread Cert.KernelIdeal.nD Cert.KernelIdeal.τ).loc Cert.KernelIdeal.main_arg8))
        Cert.KernelIdeal.Facts₀.shapeCasts_S2_S1x2 Cert.ReferenceIdeal.Facts₀.bcast_S2_S1x2_1]

end Cert.Bridge

end
-- ==== Proof.RefRun.lean ====
/-
  The reference's @main as the list of its ninety host operations in program order, each called function's
  operations written at its call site over that call's buffers, and the run read back: every weakly fair
  execution from a memory with zero counters terminates with each buffer at the fold of the operations'
  results over the launch contents.  The fold at the result buffer is `Term.out` of the nine argument
  arrays, and the fold leaves each argument array as it was.
-/
import proofs.«130533_j26087631356715_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded.  The two degree counts (a scatter-add of ones at the
    edges' ends) are each clipped below at one by three operations — the bound converted to its own type,
    broadcast, and the maximum with the broadcast bound first — into the buffers of the first and second call;
    each dense layer ends in seven — the zero and its broadcast, the comparison with it, the slope converted
    and broadcast, the product, and the select that the innermost call performs into the buffer of the layer's
    result — into the buffers of the third and fourth call. -/
abbrev ops : List (HloOp τ sig (Elt F)) :=
  [ nullary main_cst (constant S_ .f32 0x3F800000#32),
    unary main_cst main_v0 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1000000x1 ![0] bcast_S1000000_S1000000x1_0 : (⟨S1000000, .i32⟩ : BufTy).Contents (Elt F) → (⟨S1000000x1, .i32⟩ : BufTy).Contents (Elt F)),
    ternary main_v1 main_v2 main_v0 main_v3 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_1 (constant S_ .f32 0x3F800000#32),
    TRef.unary (.of main_cst_1 : TRef sig ⟨S_, .f32⟩) main_call0.v0 id,
    TRef.unary main_call0.v0 main_call0.v1 (broadcastInDim S100000 ![] bcast_S_S100000),
    TRef.binary main_call0.v1 (.of main_v3 : TRef sig ⟨S100000, .f32⟩) main_call0.v2 maximumf,
    nullary main_cst_2 (constant S_ .f32 0x00000000#32),
    unary main_cst_2 main_v5 (broadcastInDim S100000 ![] bcast_S_S100000 : (⟨S_, .f32⟩ : BufTy).Contents (Elt F) → (⟨S100000, .f32⟩ : BufTy).Contents (Elt F)),
    unary main_arg2 main_v6 (broadcastInDim S1000000x1 ![0] bcast_S1000000_S1000000x1_0 : (⟨S1000000, .i32⟩ : BufTy).Contents (Elt F) → (⟨S1000000x1, .i32⟩ : BufTy).Contents (Elt F)),
    ternary main_v5 main_v6 main_v0 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_3 (constant S_ .f32 0x3F800000#32),
    TRef.unary (.of main_cst_3 : TRef sig ⟨S_, .f32⟩) main_call1.v0 id,
    TRef.unary main_call1.v0 main_call1.v1 (broadcastInDim S100000 ![] bcast_S_S100000),
    TRef.binary main_call1.v1 (.of main_v7 : TRef sig ⟨S100000, .f32⟩) main_call1.v2 maximumf,
    nullary main_cst_4 (constant S_ .f32 0xBF000000#32),
    unary main_cst_4 main_v9 (broadcastInDim S100000 ![] bcast_S_S100000 : (⟨S_, .f32⟩ : BufTy).Contents (Elt F) → (⟨S100000, .f32⟩ : BufTy).Contents (Elt F)),
    binary main_v4 main_v9 main_v10 (Host.powf : (⟨S100000, .f32⟩ : BufTy).Contents (Elt F) → (⟨S100000, .f32⟩ : BufTy).Contents (Elt F) → (⟨S100000, .f32⟩ : BufTy).Contents (Elt F)),
    nullary main_cst_5 (constant S_ .f32 0xBF000000#32),
    unary main_cst_5 main_v11 (broadcastInDim S100000 ![] bcast_S_S100000 : (⟨S_, .f32⟩ : BufTy).Contents (Elt F) → (⟨S100000, .f32⟩ : BufTy).Contents (Elt F)),
    binary main_v8 main_v11 main_v12 (Host.powf : (⟨S100000, .f32⟩ : BufTy).Contents (Elt F) → (⟨S100000, .f32⟩ : BufTy).Contents (Elt F) → (⟨S100000, .f32⟩ : BufTy).Contents (Elt F)),
    unary main_v10 main_v13 (broadcastInDim S100000x1 ![0] bcast_S100000_S100000x1_0 : (⟨S100000, .f32⟩ : BufTy).Contents (Elt F) → (⟨S100000x1, .f32⟩ : BufTy).Contents (Elt F)),
    unary main_v13 main_v14 (broadcastInDim S100000x64 ![0, 1] bcast_S100000x1_S100000x64_0_1 : (⟨S100000x1, .f32⟩ : BufTy).Contents (Elt F) → (⟨S100000x64, .f32⟩ : BufTy).Contents (Elt F)),
    binary main_arg0 main_v14 main_v15 (mulf : (⟨S100000x64, .f32⟩ : BufTy).Contents (Elt F) → (⟨S100000x64, .f32⟩ : BufTy).Contents (Elt F) → (⟨S100000x64, .f32⟩ : BufTy).Contents (Elt F)),
    nullary main_c (constantI S_ 32 0#32),
    unary main_c main_v16 (broadcastInDim S1000000 ![] bcast_S_S1000000 : (⟨S_, .i32⟩ : BufTy).Contents (Elt F) → (⟨S1000000, .i32⟩ : BufTy).Contents (Elt F)),
    binary main_arg1 main_v16 main_v17 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 100000#32),
    unary main_c_6 main_v18 (broadcastInDim S1000000 ![] bcast_S_S1000000 : (⟨S_, .i32⟩ : BufTy).Contents (Elt F) → (⟨S1000000, .i32⟩ : BufTy).Contents (Elt F)),
    binary main_arg1 main_v18 main_v19 (addi : (⟨S1000000, .i32⟩ : BufTy).Contents (Elt F) → (⟨S1000000, .i32⟩ : BufTy).Contents (Elt F) → (⟨S1000000, .i32⟩ : BufTy).Contents (Elt F)),
    ternary main_v17 main_v19 main_arg1 main_v20 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v20 main_v21 (broadcastInDim S1000000x1 ![0] bcast_S1000000_S1000000x1_0 : (⟨S1000000, .i32⟩ : BufTy).Contents (Elt F) → (⟨S1000000x1, .i32⟩ : BufTy).Contents (Elt F)),
    binary main_v15 main_v21 main_v22 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_7 (constant S_ .f32 0x00000000#32),
    unary main_cst_7 main_v23 (broadcastInDim S100000x64 ![] bcast_S_S100000x64 : (⟨S_, .f32⟩ : BufTy).Contents (Elt F) → (⟨S100000x64, .f32⟩ : BufTy).Contents (Elt F)),
    unary main_arg2 main_v24 (broadcastInDim S1000000x1 ![0] bcast_S1000000_S1000000x1_0 : (⟨S1000000, .i32⟩ : BufTy).Contents (Elt F) → (⟨S1000000x1, .i32⟩ : BufTy).Contents (Elt F)),
    ternary main_v23 main_v24 main_v22 main_v25 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v12 main_v26 (broadcastInDim S100000x1 ![0] bcast_S100000_S100000x1_0 : (⟨S100000, .f32⟩ : BufTy).Contents (Elt F) → (⟨S100000x1, .f32⟩ : BufTy).Contents (Elt F)),
    unary main_v26 main_v27 (broadcastInDim S100000x64 ![0, 1] bcast_S100000x1_S100000x64_0_1 : (⟨S100000x1, .f32⟩ : BufTy).Contents (Elt F) → (⟨S100000x64, .f32⟩ : BufTy).Contents (Elt F)),
    binary main_v25 main_v27 main_v28 (mulf : (⟨S100000x64, .f32⟩ : BufTy).Contents (Elt F) → (⟨S100000x64, .f32⟩ : BufTy).Contents (Elt F) → (⟨S100000x64, .f32⟩ : BufTy).Contents (Elt F)),
    binary main_v28 main_arg3 main_v29 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3C23D70A#32),
    TRef.nullary main_call2.cst (constant S_ .f32 0x00000000#32),
    TRef.unary main_call2.cst main_call2.v0 (broadcastInDim S100000x64 ![] bcast_S_S100000x64),
    TRef.binary (.of main_v32 : TRef sig ⟨S100000x64, .f32⟩) main_call2.v0 main_call2.v1 (cmpf .oge),
    TRef.unary (.of main_cst_8 : TRef sig ⟨S_, .f32⟩) main_call2.v2 id,
    TRef.unary main_call2.v2 main_call2.v3 (broadcastInDim S100000x64 ![] bcast_S_S100000x64),
    TRef.binary main_call2.v3 (.of main_v32 : TRef sig ⟨S100000x64, .f32⟩) main_call2.v4 mulf,
    TRef.ternary main_call2.v1 (.of main_v32 : TRef sig ⟨S100000x64, .f32⟩) main_call2.v4 main_call2.call0.v0 select,
    unary main_v10 main_v34 (broadcastInDim S100000x1 ![0] bcast_S100000_S100000x1_0 : (⟨S100000, .f32⟩ : BufTy).Contents (Elt F) → (⟨S100000x1, .f32⟩ : BufTy).Contents (Elt F)),
    unary main_v34 main_v35 (broadcastInDim S100000x64 ![0, 1] bcast_S100000x1_S100000x64_0_1 : (⟨S100000x1, .f32⟩ : BufTy).Contents (Elt F) → (⟨S100000x64, .f32⟩ : BufTy).Contents (Elt F)),
    binary main_v33 main_v35 main_v36 (mulf : (⟨S100000x64, .f32⟩ : BufTy).Contents (Elt F) → (⟨S100000x64, .f32⟩ : BufTy).Contents (Elt F) → (⟨S100000x64, .f32⟩ : BufTy).Contents (Elt F)),
    nullary main_c_9 (constantI S_ 32 0#32),
    unary main_c_9 main_v37 (broadcastInDim S1000000 ![] bcast_S_S1000000 : (⟨S_, .i32⟩ : BufTy).Contents (Elt F) → (⟨S1000000, .i32⟩ : BufTy).Contents (Elt F)),
    binary main_arg1 main_v37 main_v38 (cmpi .slt : (⟨S1000000, .i32⟩ : BufTy).Contents (Elt F) → (⟨S1000000, .i32⟩ : BufTy).Contents (Elt F) → (⟨S1000000, .i1⟩ : BufTy).Contents (Elt F)),
    nullary main_c_10 (constantI S_ 32 100000#32),
    unary main_c_10 main_v39 (broadcastInDim S1000000 ![] bcast_S_S1000000 : (⟨S_, .i32⟩ : BufTy).Contents (Elt F) → (⟨S1000000, .i32⟩ : BufTy).Contents (Elt F)),
    binary main_arg1 main_v39 main_v40 (addi : (⟨S1000000, .i32⟩ : BufTy).Contents (Elt F) → (⟨S1000000, .i32⟩ : BufTy).Contents (Elt F) → (⟨S1000000, .i32⟩ : BufTy).Contents (Elt F)),
    ternary main_v38 main_v40 main_arg1 main_v41 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v41 main_v42 (broadcastInDim S1000000x1 ![0] bcast_S1000000_S1000000x1_0 : (⟨S1000000, .i32⟩ : BufTy).Contents (Elt F) → (⟨S1000000x1, .i32⟩ : BufTy).Contents (Elt F)),
    binary main_v36 main_v42 main_v43 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_11 (constant S_ .f32 0x00000000#32),
    unary main_cst_11 main_v44 (broadcastInDim S100000x64 ![] bcast_S_S100000x64 : (⟨S_, .f32⟩ : BufTy).Contents (Elt F) → (⟨S100000x64, .f32⟩ : BufTy).Contents (Elt F)),
    unary main_arg2 main_v45 (broadcastInDim S1000000x1 ![0] bcast_S1000000_S1000000x1_0 : (⟨S1000000, .i32⟩ : BufTy).Contents (Elt F) → (⟨S1000000x1, .i32⟩ : BufTy).Contents (Elt F)),
    ternary main_v44 main_v45 main_v43 main_v46 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_v12 main_v47 (broadcastInDim S100000x1 ![0] bcast_S100000_S100000x1_0 : (⟨S100000, .f32⟩ : BufTy).Contents (Elt F) → (⟨S100000x1, .f32⟩ : BufTy).Contents (Elt F)),
    unary main_v47 main_v48 (broadcastInDim S100000x64 ![0, 1] bcast_S100000x1_S100000x64_0_1 : (⟨S100000x1, .f32⟩ : BufTy).Contents (Elt F) → (⟨S100000x64, .f32⟩ : BufTy).Contents (Elt F)),
    binary main_v46 main_v48 main_v49 (mulf : (⟨S100000x64, .f32⟩ : BufTy).Contents (Elt F) → (⟨S100000x64, .f32⟩ : BufTy).Contents (Elt F) → (⟨S100000x64, .f32⟩ : BufTy).Contents (Elt F)),
    binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v50 main_v52 main_v53 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3C23D70A#32),
    TRef.nullary main_call3.cst (constant S_ .f32 0x00000000#32),
    TRef.unary main_call3.cst main_call3.v0 (broadcastInDim S100000x64 ![] bcast_S_S100000x64),
    TRef.binary (.of main_v53 : TRef sig ⟨S100000x64, .f32⟩) main_call3.v0 main_call3.v1 (cmpf .oge),
    TRef.unary (.of main_cst_12 : TRef sig ⟨S_, .f32⟩) main_call3.v2 id,
    TRef.unary main_call3.v2 main_call3.v3 (broadcastInDim S100000x64 ![] bcast_S_S100000x64),
    TRef.binary main_call3.v3 (.of main_v53 : TRef sig ⟨S100000x64, .f32⟩) main_call3.v4 mulf,
    TRef.ternary main_call3.v1 (.of main_v53 : TRef sig ⟨S100000x64, .f32⟩) main_call3.v4 main_call3.call0.v0 select,
    binary main_v54 main_arg7 main_v55 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg8 main_v56 (broadcastInDim S1x2 ![1] bcast_S2_S1x2_1 : (⟨S2, .f32⟩ : BufTy).Contents (Elt F) → (⟨S1x2, .f32⟩ : BufTy).Contents (Elt F)),
    unary main_v56 main_v57 (broadcastInDim S100000x2 ![0, 1] bcast_S1x2_S100000x2_0_1 : (⟨S1x2, .f32⟩ : BufTy).Contents (Elt F) → (⟨S100000x2, .f32⟩ : BufTy).Contents (Elt F)),
    binary main_v55 main_v57 main_v58 (addf : (⟨S100000x2, .f32⟩ : BufTy).Contents (Elt F) → (⟨S100000x2, .f32⟩ : BufTy).Contents (Elt F) → (⟨S100000x2, .f32⟩ : BufTy).Contents (Elt F)) ]

set_option maxRecDepth 16384 in
set_option maxHeartbeats 4000000 in
/-- @main is that straight line: its two windows, the functions' definitions unfolded at their calls and the
    records at their fields, are one chain of steps once sequencing is reassociated. -/
theorem main_eq (c : Dev nD) : main (F := F) c = seq ops := by
  simp only [main, main_part0, main_part1, fn_clip.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    unary_bufs_sub .., ternary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.scatterAdd Host.powf in
set_option maxRecDepth 16384 in
set_option maxHeartbeats 4000000 in
/-- The fold at the result buffer is `Term.out` of the arguments: reading a buffer after an operation gives the
    operation's function of its operands' contents at the buffer it writes and the earlier contents at any other,
    so the fold unrolls to one composed term over the argument arrays, each shared intermediate read once; the
    typed references' transports are the identity at these literal references, and the composed term is
    `Term.out` with its pieces unfolded.  The gather, the scatter-adds and the power are kept folded: the
    equation never looks inside them. -/
theorem out_eq (V : Valuation τ sig (Elt F)) :
    after ops V (main_v58 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

attribute [local irreducible] Host.gather Host.scatterAdd Host.powf in
set_option maxRecDepth 16384 in
set_option maxHeartbeats 4000000 in
/-- The fold leaves the first argument array as it was: no operation writes it. -/
theorem arg0_eq (V : Valuation τ sig (Elt F)) :
    after ops V (main_arg0 : DevRef τ sig) = V (main_arg0 : DevRef τ sig) := by
  simp only [after_cons, after_nil]
  rfl

attribute [local irreducible] Host.gather Host.scatterAdd Host.powf in
set_option maxRecDepth 16384 in
set_option maxHeartbeats 4000000 in
/-- The fold leaves the second argument array as it was: no operation writes it. -/
theorem arg1_eq (V : Valuation τ sig (Elt F)) :
    after ops V (main_arg1 : DevRef τ sig) = V (main_arg1 : DevRef τ sig) := by
  simp only [after_cons, after_nil]
  rfl

attribute [local irreducible] Host.gather Host.scatterAdd Host.powf in
set_option maxRecDepth 16384 in
set_option maxHeartbeats 4000000 in
/-- The fold leaves the third argument array as it was: no operation writes it. -/
theorem arg2_eq (V : Valuation τ sig (Elt F)) :
    after ops V (main_arg2 : DevRef τ sig) = V (main_arg2 : DevRef τ sig) := by
  simp only [after_cons, after_nil]
  rfl

attribute [local irreducible] Host.gather Host.scatterAdd Host.powf in
set_option maxRecDepth 16384 in
set_option maxHeartbeats 4000000 in
/-- The fold leaves the fourth argument array as it was: no operation writes it. -/
theorem arg3_eq (V : Valuation τ sig (Elt F)) :
    after ops V (main_arg3 : DevRef τ sig) = V (main_arg3 : DevRef τ sig) := by
  simp only [after_cons, after_nil]
  rfl

attribute [local irreducible] Host.gather Host.scatterAdd Host.powf in
set_option maxRecDepth 16384 in
set_option maxHeartbeats 4000000 in
/-- The fold leaves the fifth argument array as it was: no operation writes it. -/
theorem arg4_eq (V : Valuation τ sig (Elt F)) :
    after ops V (main_arg4 : DevRef τ sig) = V (main_arg4 : DevRef τ sig) := by
  simp only [after_cons, after_nil]
  rfl

attribute [local irreducible] Host.gather Host.scatterAdd Host.powf in
set_option maxRecDepth 16384 in
set_option maxHeartbeats 4000000 in
/-- The fold leaves the sixth argument array as it was: no operation writes it. -/
theorem arg5_eq (V : Valuation τ sig (Elt F)) :
    after ops V (main_arg5 : DevRef τ sig) = V (main_arg5 : DevRef τ sig) := by
  simp only [after_cons, after_nil]
  rfl

attribute [local irreducible] Host.gather Host.scatterAdd Host.powf in
set_option maxRecDepth 16384 in
set_option maxHeartbeats 4000000 in
/-- The fold leaves the seventh argument array as it was: no operation writes it. -/
theorem arg6_eq (V : Valuation τ sig (Elt F)) :
    after ops V (main_arg6 : DevRef τ sig) = V (main_arg6 : DevRef τ sig) := by
  simp only [after_cons, after_nil]
  rfl

attribute [local irreducible] Host.gather Host.scatterAdd Host.powf in
set_option maxRecDepth 16384 in
set_option maxHeartbeats 4000000 in
/-- The fold leaves the eighth argument array as it was: no operation writes it. -/
theorem arg7_eq (V : Valuation τ sig (Elt F)) :
    after ops V (main_arg7 : DevRef τ sig) = V (main_arg7 : DevRef τ sig) := by
  simp only [after_cons, after_nil]
  rfl

attribute [local irreducible] Host.gather Host.scatterAdd Host.powf in
set_option maxRecDepth 16384 in
set_option maxHeartbeats 4000000 in
/-- The fold leaves the ninth argument array as it was: no operation writes it. -/
theorem arg8_eq (V : Valuation τ sig (Elt F)) :
    after ops V (main_arg8 : DevRef τ sig) = V (main_arg8 : DevRef τ sig) := by
  simp only [after_cons, after_nil]
  rfl

end Cert.ReferenceIdeal.RefRun

end
-- ==== Proof.lean ====
/-
  Two graph-convolution layers and a linear classifier over 100000 nodes and a million edges: the kernel program
  against the plain reference, on the extended reals.

  Both programs compute, from the edge lists, the factors outdeg^(-1/2) and indeg^(-1/2) (degrees clipped below at 1),
  and twice aggregate the neighbours' rows: agg(h) = scatter-add over dst of the rows (h · outdeg^(-1/2))[src].  The
  reference then applies, on the host,  leaky((agg · indeg^(-1/2)) W + b)  with leaky x = x for x ≥ 0 and f32(0.01)·x
  otherwise, and after the second layer the classifier  h Wc + bc.  The kernel program computes the same dense chain in
  two kernel regions, 5000 rows at a point: the first region one layer, the second the second layer and the classifier.

  At the ideal values a change of float format is the identity and a matrix product accumulated into zero is the product,
  so an entry of a region's block is the same sum over the 64 contracted coordinates, the same bias and the same leaky as
  the corresponding entry of the reference's layer; the blocks cover the rows; and the host operations around the regions
  are the reference's own, up to laying a vector out as a column or a row by a reshape instead of a broadcast.  No law
  that fails at the infinities is used: the two results are equal for all extended-real inputs, and the precondition is
  not opened.

  The three frames are the generated ones (the reference's from its run with the result dropped); the ledger of the
  idealization is empty, so `preserves` is `True`.
-/
import proofs.«130533_j26087631356715_1_alg».proof.Defs
import proofs.«130533_j26087631356715_1_alg».proof.Proof.Gen.Kernel
import proofs.«130533_j26087631356715_1_alg».proof.Proof.Gen.Kernel.Skeleton
import proofs.«130533_j26087631356715_1_alg».proof.Proof.Gen.Kernel.Launch
import proofs.«130533_j26087631356715_1_alg».proof.Proof.Gen.Kernel.Points
import proofs.«130533_j26087631356715_1_alg».proof.Proof.Gen.Kernel.Frame
import proofs.«130533_j26087631356715_1_alg».proof.Proof.Gen.KernelIdeal
import proofs.«130533_j26087631356715_1_alg».proof.Proof.Gen.KernelIdeal.Skeleton
import proofs.«130533_j26087631356715_1_alg».proof.Proof.Gen.KernelIdeal.Launch
import proofs.«130533_j26087631356715_1_alg».proof.Proof.Gen.KernelIdeal.Points
import proofs.«130533_j26087631356715_1_alg».proof.Proof.Gen.KernelIdeal.Frame
import proofs.«130533_j26087631356715_1_alg».proof.Proof.Gen.ReferenceIdeal
import proofs.«130533_j26087631356715_1_alg».proof.Proof.Gen.Pre_finite_inputs
import proofs.«130533_j26087631356715_1_alg».proof.Proof.KernelRun
import proofs.«130533_j26087631356715_1_alg».proof.Proof.KernelValue
import proofs.«130533_j26087631356715_1_alg».proof.Proof.Bridge
import proofs.«130533_j26087631356715_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped: no operation writes an argument array. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _)⟩)
    (Cert.ReferenceIdeal.RefRun.run_main (F := Ideal) m ρ)

/-- Both programs end with the network's value on the argument arrays: the kernel program by its regions' output arrays
    read back through the host operations between them, the reference by its operations' composed term. -/
theorem algebraic : Cert.algebraic_KernelIdeal_ReferenceIdeal := by
  intro m ρ m' ρ' _ hagree
  refine ⟨fun c => Cert.KernelIdeal.Value.result m c, ?_, ?_⟩
  · exact (θ_run Cert.KernelIdeal.defs _ _).mono (fun r h c => ⟨(h c).1.trans (Cert.KernelIdeal.Value.W8_v43 m ρ c), (h c).2⟩)
      (Cert.KernelIdeal.Run.run_result (F := Ideal) m ρ)
  · refine (θ_run Cert.ReferenceIdeal.defs _ _).mono (fun r h c =>
      ⟨?_, (h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _),
       (h c Cert.ReferenceIdeal.main_arg5).trans (Cert.ReferenceIdeal.RefRun.arg5_eq _),
       (h c Cert.ReferenceIdeal.main_arg6).trans (Cert.ReferenceIdeal.RefRun.arg6_eq _),
       (h c Cert.ReferenceIdeal.main_arg7).trans (Cert.ReferenceIdeal.RefRun.arg7_eq _),
       (h c Cert.ReferenceIdeal.main_arg8).trans (Cert.ReferenceIdeal.RefRun.arg8_eq _)⟩)
      (Cert.ReferenceIdeal.RefRun.run_main (F := Ideal) m' ρ')
    obtain ⟨g0, g1, g2, g3, g4, g5, g6, g7, g8⟩ := hagree c
    rw [h c Cert.ReferenceIdeal.main_v58, Cert.ReferenceIdeal.RefRun.out_eq]
    show Cert.ReferenceIdeal.Term.out (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) = Cert.KernelIdeal.Value.result m c
    rw [Cert.Bridge.result_eq_out, g0, g1, g2, g3, g4, g5, g6, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
